-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_v66) = v2 c
          ∧ r.2.mem ((c.tc : Thread Cert.ReferenceIdeal.nD Cert.ReferenceIdeal.τ).loc Cert.ReferenceIdeal.main_v91) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x128 : Shape := ⟨2, ![256, 128]⟩
abbrev S256 : Shape := ⟨1, ![256]⟩
abbrev S256x512 : Shape := ⟨2, ![256, 512]⟩
abbrev S1000000x128 : Shape := ⟨2, ![1000000, 128]⟩
abbrev S128x128 : Shape := ⟨2, ![128, 128]⟩
abbrev S128 : Shape := ⟨1, ![128]⟩
abbrev S_ : Shape := ⟨0, ![]⟩

class Facts : Prop where
  bcast_S_S256x128 : S_.BroadcastsInDim S256x128 (![] : Fin 0 → Fin S256x128.rank)
  reducesTo_S256x128_S_d0_1 : S256x128.ReducesTo [0, 1] S_
  h_S_ : 0 < S_.numel
  bcast_S_S1000000x128 : S_.BroadcastsInDim S1000000x128 (![] : Fin 0 → Fin S1000000x128.rank)
  reducesTo_S1000000x128_S_d0_1 : S1000000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_arg16 : FVec F S128x128 .f32) (main_arg17 : FVec F S128 .f32) (main_v63 : IVec S_ 1) (main_v67 : IVec S_ 1) : IVec S_ 1 :=
  let main_v68 : IVec S_ 1 := andi main_v63 main_v67
  let main_v69 : FVec F S128x128 .f32 := Host.absf main_arg16
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  main_v78

def fn_part3 {F : FTy → Type} [FloatOps F] (main_arg13 : FVec F S128 .f32) (main_arg14 : FVec F S128x128 .f32) (main_arg15 : FVec F S128 .f32) (main_arg16 : FVec F S128x128 .f32) (main_arg17 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg14
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_v63 main_v67

def fn_part2 {F : FTy → Type} [FloatOps F] (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg13 main_arg14 main_arg15 main_arg16 main_arg17 main_v48 main_v49 main_v50

def fn_part1 {F : FTy → Type} [FloatOps F] (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_v13 : IVec S_ 1) (main_v16 : IVec S1000000x128 1) : IVec S_ 1 :=
  let main_c_5 : IVec S_ 1 := constantI S_ 1 1#1
  let main_v17 : IVec S_ 1 := (fun x v => Host.reduce IntOp.andi x v reducesTo_S1000000x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_arg16 main_arg17 main_v33

def fn {F : FTy → Type} [FloatOps F] (main_arg0 : FVec F S256x128 .f32) (main_arg1 : FVec F S256x128 .f32) (main_arg2 : IVec S256 32) (main_arg3 : IVec S256x512 32) (main_arg4 : FVec F S1000000x128 .f32) (main_arg5 : FVec F S1000000x128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) : IVec S_ 1 :=
  let main_v0 : FVec F S256x128 .f32 := Host.absf main_arg0
  let main_cst : FVec F S_ .f32 := constant S_ .f32 0x7F800000#32
  let main_v1 : FVec F S256x128 .f32 := broadcastInDim S256x128 ![] bcast_S_S256x128 main_cst
  let main_v2 : IVec S256x128 1 := cmpf .olt main_v0 main_v1
  let main_c : IVec S_ 1 := constantI S_ 1 1#1
  let main_v3 : IVec S_ 1 := (fun x v => Host.reduce IntOp.andi x v reducesTo_S256x128_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S1000000x128 .f32 := Host.absf main_arg4
  let main_cst_2 : FVec F S_ .f32 := constant S_ .f32 0x7F800000#32
  let main_v10 : FVec F S1000000x128 .f32 := broadcastInDim S1000000x128 ![] bcast_S_S1000000x128 main_cst_2
  let main_v11 : IVec S1000000x128 1 := cmpf .olt main_v9 main_v10
  let main_c_3 : IVec S_ 1 := constantI S_ 1 1#1
  let main_v12 : IVec S_ 1 := (fun x v => Host.reduce IntOp.andi x v reducesTo_S1000000x128_S_d0_1 h_S_) main_v11 main_c_3
  let main_v13 : IVec S_ 1 := andi main_v8 main_v12
  let main_v14 : FVec F S1000000x128 .f32 := Host.absf main_arg5
  let main_cst_4 : FVec F S_ .f32 := constant S_ .f32 0x7F800000#32
  let main_v15 : FVec F S1000000x128 .f32 := broadcastInDim S1000000x128 ![] bcast_S_S1000000x128 main_cst_4
  let main_v16 : IVec S1000000x128 1 := cmpf .olt main_v14 main_v15
  fn_part1 (F := F) main_arg6 main_arg7 main_arg8 main_arg9 main_arg10 main_arg11 main_arg12 main_arg13 main_arg14 main_arg15 main_arg16 main_arg17 main_v13 main_v16
-- ==== Kernel.lean ====
abbrev S256x128 : Shape := ⟨2, ![256, 128]⟩
abbrev S256 : Shape := ⟨1, ![256]⟩
abbrev S256x512 : Shape := ⟨2, ![256, 512]⟩
abbrev S1000000x128 : Shape := ⟨2, ![1000000, 128]⟩
abbrev S128x128 : Shape := ⟨2, ![128, 128]⟩
abbrev S128 : Shape := ⟨1, ![128]⟩
abbrev S512x256 : Shape := ⟨2, ![512, 256]⟩
abbrev S_ : Shape := ⟨0, ![]⟩
abbrev S512x256x1 : Shape := ⟨3, ![512, 256, 1]⟩
abbrev S512x256x128 : Shape := ⟨3, ![512, 256, 128]⟩
abbrev S1x128 : Shape := ⟨2, ![1, 128]⟩
abbrev S256x1 : Shape := ⟨2, ![256, 1]⟩
abbrev S32x256x128 : Shape := ⟨3, ![32, 256, 128]⟩
abbrev S8192x128 : Shape := ⟨2, ![8192, 128]⟩
abbrev S1x256x128 : Shape := ⟨3, ![1, 256, 128]⟩

abbrev nBuf : Space → Nat
  | .hbm => 117
  | .vmem => 16
  | .smem => 0
  | _ => 0

abbrev bufTy : (tb : Table) → Fin (tcTables nBuf tb) → BufTy
  | .hbm, ⟨0, _⟩ => ⟨S256x128, .f32⟩
  | .hbm, ⟨1, _⟩ => ⟨S256x128, .f32⟩
  | .hbm, ⟨2, _⟩ => ⟨S256, .i32⟩
  | .hbm, ⟨3, _⟩ => ⟨S256x512, .i32⟩
  | .hbm, ⟨4, _⟩ => ⟨S1000000x128, .f32⟩
  | .hbm, ⟨5, _⟩ => ⟨S1000000x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128x128, .f32⟩
  | .hbm, ⟨17, _⟩ => ⟨S128, .f32⟩
  | .hbm, ⟨18, _⟩ => ⟨S512x256, .i32⟩
  | .hbm, ⟨19, _⟩ => ⟨S_, .i32⟩
  | .hbm, ⟨20, _⟩ => ⟨S512x256, .i32⟩
  | .hbm, ⟨21, _⟩ => ⟨S512x256, .i1⟩
  | .hbm, ⟨22, _⟩ => ⟨S_, .i32⟩
  | .hbm, ⟨23, _⟩ => ⟨S512x256, .i32⟩
  | .hbm, ⟨24, _⟩ => ⟨S512x256, .i32⟩
  | .hbm, ⟨25, _⟩ => ⟨S512x256, .i32⟩
  | .hbm, ⟨26, _⟩ => ⟨S512x256x1, .i32⟩
  | .hbm, ⟨27, _⟩ => ⟨S512x256x128, .f32⟩
  | .hbm, ⟨28, _⟩ => ⟨S512x256x128, .bf16⟩
  | .hbm, ⟨29, _⟩ => ⟨S256x128, .bf16⟩
  | .hbm, ⟨30, _⟩ => ⟨S256x128, .bf16⟩
  | .hbm, ⟨31, _⟩ => ⟨S128x128, .f32⟩
  | .hbm, ⟨32, _⟩ => ⟨S128x128, .bf16⟩
  | .hbm, ⟨33, _⟩ => ⟨S128x128, .f32⟩
  | .hbm, ⟨34, _⟩ => ⟨S128x128, .bf16⟩
  | .hbm, ⟨35, _⟩ => ⟨S256x128, .f32⟩
  | .hbm, ⟨36, _⟩ => ⟨S1x128, .f32⟩
  | .hbm, ⟨37, _⟩ => ⟨S256x128, .f32⟩
  | .hbm, ⟨38, _⟩ => ⟨S256x128, .f32⟩
  | .hbm, ⟨39, _⟩ => ⟨S256x128, .f32⟩
  | .hbm, ⟨40, _⟩ => ⟨S1x128, .f32⟩
  | .hbm, ⟨41, _⟩ => ⟨S256x128, .f32⟩
  | .hbm, ⟨42, _⟩ => ⟨S256x128, .f32⟩
  | .hbm, ⟨43, _⟩ => ⟨S128x128, .f32⟩
  | .hbm, ⟨44, _⟩ => ⟨S128x128, .bf16⟩
  | .hbm, ⟨45, _⟩ => ⟨S128x128, .f32⟩
  | .hbm, ⟨46, _⟩ => ⟨S128x128, .bf16⟩
  | .hbm, ⟨47, _⟩ => ⟨S128x128, .f32⟩
  | .hbm, ⟨48, _⟩ => ⟨S128x128, .bf16⟩
  | .hbm, ⟨49, _⟩ => ⟨S128x128, .f32⟩
  | .hbm, ⟨50, _⟩ => ⟨S128x128, .bf16⟩
  | .hbm, ⟨51, _⟩ => ⟨S512x256x128, .f32⟩
  | .hbm, ⟨52, _⟩ => ⟨S512x256x128, .f32⟩
  | .hbm, ⟨53, _⟩ => ⟨S_, .i32⟩
  | .hbm, ⟨54, _⟩ => ⟨S256, .i32⟩
  | .hbm, ⟨55, _⟩ => ⟨S256, .i1⟩
  | .hbm, ⟨56, _⟩ => ⟨S_, .i32⟩
  | .hbm, ⟨57, _⟩ => ⟨S256, .i32⟩
  | .hbm, ⟨58, _⟩ => ⟨S256, .i32⟩
  | .hbm, ⟨59, _⟩ => ⟨S256, .i32⟩
  | .hbm, ⟨60, _⟩ => ⟨S256x1, .i32⟩
  | .hbm, ⟨61, _⟩ => ⟨S256x128, .f32⟩
  | .hbm, ⟨62, _⟩ => ⟨S_, .f32⟩
  | .hbm, ⟨63, _⟩ => ⟨S256x128, .f32⟩
  | .hbm, ⟨64, _⟩ => ⟨S256x128, .f32⟩
  | .hbm, ⟨65, _⟩ => ⟨S_, .f32⟩
  | .hbm, ⟨66, _⟩ => ⟨S256x128, .f32⟩
  | .hbm, ⟨67, _⟩ => ⟨S256x128, .f32⟩
  | .hbm, ⟨68, _⟩ => ⟨S256x128, .f32⟩
  | .hbm, ⟨69, _⟩ => ⟨S256x128, .f32⟩
  | .hbm, ⟨70, _⟩ => ⟨S_, .f32⟩
  | .hbm, ⟨71, _⟩ => ⟨S256, .f32⟩
  | .hbm, ⟨72, _⟩ => ⟨S256x1, .f32⟩
  | .hbm, ⟨73, _⟩ => ⟨S256x1, .f32⟩
  | .hbm, ⟨74, _⟩ => ⟨S256x128, .f32⟩
  | .hbm, ⟨75, _⟩ => ⟨S256x128, .f32⟩
  | .hbm, ⟨76, _⟩ => ⟨S_, .i32⟩
  | .hbm, ⟨77, _⟩ => ⟨S256, .i32⟩
  | .hbm, ⟨78, _⟩ => ⟨S256, .i1⟩
  | .hbm, ⟨79, _⟩ => ⟨S_, .i32⟩
  | .hbm, ⟨80, _⟩ => ⟨S256, .i32⟩
  | .hbm, ⟨81, _⟩ => ⟨S256, .i32⟩
  | .hbm, ⟨82, _⟩ => ⟨S256, .i32⟩
  | .hbm, ⟨83, _⟩ => ⟨S256x1, .i32⟩
  | .hbm, ⟨84, _⟩ => ⟨S1000000x128, .f32⟩
  | .hbm, ⟨85, _⟩ => ⟨S_, .i32⟩
  | .hbm, ⟨86, _⟩ => ⟨S256, .i32⟩
  | .hbm, ⟨87, _⟩ => ⟨S256, .i1⟩
  | .hbm, ⟨88, _⟩ => ⟨S_, .i32⟩
  | .hbm, ⟨89, _⟩ => ⟨S256, .i32⟩
  | .hbm, ⟨90, _⟩ => ⟨S256, .i32⟩
  | .hbm, ⟨91, _⟩ => ⟨S256, .i32⟩
  | .hbm, ⟨92, _⟩ => ⟨S256x1, .i32⟩
  | .hbm, ⟨93, _⟩ => ⟨S256x128, .f32⟩
  | .hbm, ⟨94, _⟩ => ⟨S_, .f32⟩
  | .hbm, ⟨95, _⟩ => ⟨S256x128, .f32⟩
  | .hbm, ⟨96, _⟩ => ⟨S256x128, .f32⟩
  | .hbm, ⟨97, _⟩ => ⟨S_, .f32⟩
  | .hbm, ⟨98, _⟩ => ⟨S256x128, .f32⟩
  | .hbm, ⟨99, _⟩ => ⟨S256x128, .f32⟩
  | .hbm, ⟨100, _⟩ => ⟨S256x128, .f32⟩
  | .hbm, ⟨101, _⟩ => ⟨S256x128, .f32⟩
  | .hbm, ⟨102, _⟩ => ⟨S_, .f32⟩
  | .hbm, ⟨103, _⟩ => ⟨S256, .f32⟩
  | .hbm, ⟨104, _⟩ => ⟨S256x1, .f32⟩
  | .hbm, ⟨105, _⟩ => ⟨S256x1, .f32⟩
  | .hbm, ⟨106, _⟩ => ⟨S256x128, .f32⟩
  | .hbm, ⟨107, _⟩ => ⟨S256x128, .f32⟩
  | .hbm, ⟨108, _⟩ => ⟨S_, .i32⟩
  | .hbm, ⟨109, _⟩ => ⟨S256, .i32⟩
  | .hbm, ⟨110, _⟩ => ⟨S256, .i1⟩
  | .hbm, ⟨111, _⟩ => ⟨S_, .i32⟩
  | .hbm, ⟨112, _⟩ => ⟨S256, .i32⟩
  | .hbm, ⟨113, _⟩ => ⟨S256, .i32⟩
  | .hbm, ⟨114, _⟩ => ⟨S256, .i32⟩
  | .hbm, ⟨115, _⟩ => ⟨S256x1, .i32⟩
  | .hbm, ⟨116, _⟩ => ⟨S1000000x128, .f32⟩
  | .local _ .vmem, ⟨0, _⟩ => ⟨S32x256x128, .bf16⟩
  | .local _ .vmem, ⟨1, _⟩ => ⟨S32x256x128, .bf16⟩
  | .local _ .vmem, ⟨2, _⟩ => ⟨S256x128, .f32⟩
  | .local _ .vmem, ⟨3, _⟩ => ⟨S128x128, .bf16⟩
  | .local _ .vmem, ⟨4, _⟩ => ⟨S128, .f32⟩
  | .local _ .vmem, ⟨5, _⟩ => ⟨S128x128, .bf16⟩
  | .local _ .vmem, ⟨6, _⟩ => ⟨S128, .f32⟩
  | .local _ .vmem, ⟨7, _⟩ => ⟨S256x128, .f32⟩
  | .local _ .vmem, ⟨8, _⟩ => ⟨S128x128, .bf16⟩
  | .local _ .vmem, ⟨9, _⟩ => ⟨S128, .f32⟩
  | .local _ .vmem, ⟨10, _⟩ => ⟨S128x128, .bf16⟩
  | .local _ .vmem, ⟨11, _⟩ => ⟨S128, .f32⟩
  | .local _ .vmem, ⟨12, _⟩ => ⟨S32x256x128, .f32⟩
  | .local _ .vmem, ⟨13, _⟩ => ⟨S32x256x128, .f32⟩
  | .local _ .vmem, ⟨14, _⟩ => ⟨S32x256x128, .f32⟩
  | .local _ .vmem, ⟨15, _⟩ => ⟨S32x256x128, .f32⟩
  | _, _ => ⟨S256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_call0_v0 : Ref sig .tc := ⟨.hbm, 18, rfl⟩
abbrev main_call0_c : Ref sig .tc := ⟨.hbm, 19, rfl⟩
abbrev main_call0_v1 : Ref sig .tc := ⟨.hbm, 20, rfl⟩
abbrev main_call0_v2 : Ref sig .tc := ⟨.hbm, 21, rfl⟩
abbrev main_call0_c_0 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_v15 : Ref sig .tc := ⟨.hbm, 35, rfl⟩
abbrev main_call0_v16 : Ref sig .tc := ⟨.hbm, 36, rfl⟩
abbrev main_call0_v17 : Ref sig .tc := ⟨.hbm, 37, rfl⟩
abbrev main_call0_v18 : Ref sig .tc := ⟨.hbm, 38, rfl⟩
abbrev main_call0_v19 : Ref sig .tc := ⟨.hbm, 39, rfl⟩
abbrev main_call0_v20 : Ref sig .tc := ⟨.hbm, 40, rfl⟩
abbrev main_call0_v21 : Ref sig .tc := ⟨.hbm, 41, rfl⟩
abbrev main_call0_v22 : Ref sig .tc := ⟨.hbm, 42, rfl⟩
abbrev main_call0_v23 : Ref sig .tc := ⟨.hbm, 43, rfl⟩
abbrev main_call0_v24 : Ref sig .tc := ⟨.hbm, 44, rfl⟩
abbrev main_call0_v25 : Ref sig .tc := ⟨.hbm, 45, rfl⟩
abbrev main_call0_v26 : Ref sig .tc := ⟨.hbm, 46, rfl⟩
abbrev main_call0_v27 : Ref sig .tc := ⟨.hbm, 47, rfl⟩
abbrev main_call0_v28 : Ref sig .tc := ⟨.hbm, 48, rfl⟩
abbrev main_call0_v29 : Ref sig .tc := ⟨.hbm, 49, rfl⟩
abbrev main_call0_v30 : Ref sig .tc := ⟨.hbm, 50, rfl⟩
abbrev main_v0_1 : Ref sig .tc := ⟨.hbm, 51, rfl⟩
abbrev main_v0_0 : Ref sig .tc := ⟨.hbm, 52, rfl⟩
abbrev main_call0_c_1 : Ref sig .tc := ⟨.hbm, 53, rfl⟩
abbrev main_call0_v32 : Ref sig .tc := ⟨.hbm, 54, rfl⟩
abbrev main_call0_v33 : Ref sig .tc := ⟨.hbm, 55, rfl⟩
abbrev main_call0_c_2 : Ref sig .tc := ⟨.hbm, 56, rfl⟩
abbrev main_call0_v34 : Ref sig .tc := ⟨.hbm, 57, rfl⟩
abbrev main_call0_v35 : Ref sig .tc := ⟨.hbm, 58, rfl⟩
abbrev main_call0_v36 : Ref sig .tc := ⟨.hbm, 59, rfl⟩
abbrev main_call0_v37 : Ref sig .tc := ⟨.hbm, 60, rfl⟩
abbrev main_call0_v38 : Ref sig .tc := ⟨.hbm, 61, rfl⟩
abbrev main_call0_cst : Ref sig .tc := ⟨.hbm, 62, rfl⟩
abbrev main_call0_v39 : Ref sig .tc := ⟨.hbm, 63, rfl⟩
abbrev main_call0_v40 : Ref sig .tc := ⟨.hbm, 64, rfl⟩
abbrev main_call0_cst_3 : Ref sig .tc := ⟨.hbm, 65, rfl⟩
abbrev main_call0_v41 : Ref sig .tc := ⟨.hbm, 66, rfl⟩
abbrev main_call0_v42 : Ref sig .tc := ⟨.hbm, 67, rfl⟩
abbrev main_call0_v43 : Ref sig .tc := ⟨.hbm, 68, rfl⟩
abbrev main_call0_v44 : Ref sig .tc := ⟨.hbm, 69, rfl⟩
abbrev main_call0_cst_4 : Ref sig .tc := ⟨.hbm, 70, rfl⟩
abbrev main_call0_v45 : Ref sig .tc := ⟨.hbm, 71, rfl⟩
abbrev main_call0_v46 : Ref sig .tc := ⟨.hbm, 72, rfl⟩
abbrev main_call0_v47 : Ref sig .tc := ⟨.hbm, 73, rfl⟩
abbrev main_call0_v48 : Ref sig .tc := ⟨.hbm, 74, rfl⟩
abbrev main_call0_v49 : Ref sig .tc := ⟨.hbm, 75, rfl⟩
abbrev main_call0_c_5 : Ref sig .tc := ⟨.hbm, 76, rfl⟩
abbrev main_call0_v50 : Ref sig .tc := ⟨.hbm, 77, rfl⟩
abbrev main_call0_v51 : Ref sig .tc := ⟨.hbm, 78, rfl⟩
abbrev main_call0_c_6 : Ref sig .tc := ⟨.hbm, 79, rfl⟩
abbrev main_call0_v52 : Ref sig .tc := ⟨.hbm, 80, rfl⟩
abbrev main_call0_v53 : Ref sig .tc := ⟨.hbm, 81, rfl⟩
abbrev main_call0_v54 : Ref sig .tc := ⟨.hbm, 82, rfl⟩
abbrev main_call0_v55 : Ref sig .tc := ⟨.hbm, 83, rfl⟩
abbrev main_v0_2 : Ref sig .tc := ⟨.hbm, 84, rfl⟩
abbrev main_call0_c_7 : Ref sig .tc := ⟨.hbm, 85, rfl⟩
abbrev main_call0_v57 : Ref sig .tc := ⟨.hbm, 86, rfl⟩
abbrev main_call0_v58 : Ref sig .tc := ⟨.hbm, 87, rfl⟩
abbrev main_call0_c_8 : Ref sig .tc := ⟨.hbm, 88, rfl⟩
abbrev main_call0_v59 : Ref sig .tc := ⟨.hbm, 89, rfl⟩
abbrev main_call0_v60 : Ref sig .tc := ⟨.hbm, 90, rfl⟩
abbrev main_call0_v61 : Ref sig .tc := ⟨.hbm, 91, rfl⟩
abbrev main_call0_v62 : Ref sig .tc := ⟨.hbm, 92, rfl⟩
abbrev main_call0_v63 : Ref sig .tc := ⟨.hbm, 93, rfl⟩
abbrev main_call0_cst_9 : Ref sig .tc := ⟨.hbm, 94, rfl⟩
abbrev main_call0_v64 : Ref sig .tc := ⟨.hbm, 95, rfl⟩
abbrev main_call0_v65 : Ref sig .tc := ⟨.hbm, 96, rfl⟩
abbrev main_call0_cst_10 : Ref sig .tc := ⟨.hbm, 97, rfl⟩
abbrev main_call0_v66 : Ref sig .tc := ⟨.hbm, 98, rfl⟩
abbrev main_call0_v67 : Ref sig .tc := ⟨.hbm, 99, rfl⟩
abbrev main_call0_v68 : Ref sig .tc := ⟨.hbm, 100, rfl⟩
abbrev main_call0_v69 : Ref sig .tc := ⟨.hbm, 101, rfl⟩
abbrev main_call0_cst_11 : Ref sig .tc := ⟨.hbm, 102, rfl⟩
abbrev main_call0_v70 : Ref sig .tc := ⟨.hbm, 103, rfl⟩
abbrev main_call0_v71 : Ref sig .tc := ⟨.hbm, 104, rfl⟩
abbrev main_call0_v72 : Ref sig .tc := ⟨.hbm, 105, rfl⟩
abbrev main_call0_v73 : Ref sig .tc := ⟨.hbm, 106, rfl⟩
abbrev main_call0_v74 : Ref sig .tc := ⟨.hbm, 107, rfl⟩
abbrev main_call0_c_12 : Ref sig .tc := ⟨.hbm, 108, rfl⟩
abbrev main_call0_v75 : Ref sig .tc := ⟨.hbm, 109, rfl⟩
abbrev main_call0_v76 : Ref sig .tc := ⟨.hbm, 110, rfl⟩
abbrev main_call0_c_13 : Ref sig .tc := ⟨.hbm, 111, rfl⟩
abbrev main_call0_v77 : Ref sig .tc := ⟨.hbm, 112, rfl⟩
abbrev main_call0_v78 : Ref sig .tc := ⟨.hbm, 113, rfl⟩
abbrev main_call0_v79 : Ref sig .tc := ⟨.hbm, 114, rfl⟩
abbrev main_call0_v80 : Ref sig .tc := ⟨.hbm, 115, rfl⟩
abbrev main_v0_3 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S32x256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S32x256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  transposes_S256x512_S512x256_1_0 : S256x512.Transposes [1, 0] S512x256
  bcast_S_S512x256 : S_.BroadcastsInDim S512x256 (![] : Fin 0 → Fin S512x256.rank)
  bcast_S512x256_S512x256x1_0_1 : S512x256.BroadcastsInDim S512x256x1 (![0, 1] : Fin 2 → Fin S512x256x1.rank)
  bitsLt_bf16_f32 : FTy.bits .bf16 < FTy.bits .f32
  transposes_S128x128_S128x128_1_0 : S128x128.Transposes [1, 0] S128x128
  bcast_S128_S1x128_1 : S128.BroadcastsInDim S1x128 (![1] : Fin 1 → Fin S1x128.rank)
  bcast_S1x128_S256x128_0_1 : S1x128.BroadcastsInDim S256x128 (![0, 1] : Fin 2 → Fin S256x128.rank)
  bcast_S_S256 : S_.BroadcastsInDim S256 (![] : Fin 0 → Fin S256.rank)
  bcast_S256_S256x1_0 : S256.BroadcastsInDim S256x1 (![0] : Fin 1 → Fin S256x1.rank)
  bcast_S_S256x128 : S_.BroadcastsInDim S256x128 (![] : Fin 0 → Fin S256x128.rank)
  reducesTo_S256x128_S256_d1 : S256x128.ReducesTo [1] S256
  h_S_ : 0 < S_.numel
  bcast_S256x1_S256x128_0_1 : S256x1.BroadcastsInDim S256x128 (![0, 1] : Fin 2 → Fin S256x128.rank)
  inb_S32x256x128_S32x256x128_0_0_0 : ∀ a, (![0, 0, 0] : Fin 3 → Nat) a + S32x256x128.size a ≤ S32x256x128.size a
  h_S32x256x128 : 0 < S32x256x128.numel
  shapeCasts_S32x256x128_S32x256x128 : S32x256x128.ShapeCasts S32x256x128
  shapeCasts_S32x256x128_S8192x128 : S32x256x128.ShapeCasts S8192x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S8192x128 : S1x128.Broadcasts S8192x128
  shapeCasts_S8192x128_S32x256x128 : S8192x128.ShapeCasts S32x256x128
  shapeCasts_S256x128_S1x256x128 : S256x128.ShapeCasts S1x256x128
  broadcasts_S1x256x128_S32x256x128 : S1x256x128.Broadcasts S32x256x128
  gather_S1000000x128_S512x256x1_S512x256x128_2_0_n_n_0_2_1128_wf : GatherDims.WF S1000000x128 S512x256x1 S512x256x128 [2] [0] [] [0] [] 2 ![1, 128]
  dot_S256x128_S128x128_S256x128_1_0_0_1_n_n_wf : DotDims.WF S256x128 S128x128 S256x128 [1] [0] [0] [1] [] []
  gather_S1000000x128_S256x1_S256x128_1_0_n_n_0_1_1128_wf : GatherDims.WF S1000000x128 S256x1 S256x128 [1] [0] [] [0] [] 1 ![1, 128]
  scatter_S1000000x128_S256x1_S256x128_1_0_0_1_wf : ScatterDims.WF S1000000x128 S256x1 S256x128 [1] [0] [0] 1
  dot_S8192x128_S128x128_S8192x128_1_0_0_1_n_n_wf : DotDims.WF S8192x128 S128x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x256x128.size a ≤ S512x256x128.size a
  hwx0_0 : ∀ i : grid0.Coords, EltTy.bits .bf16 = 32 ∨ (Rect.block (s := S512x256x128) S32x256x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x128.size a ≤ S256x128.size a
  hwx0_6 : ∀ i : grid0.Coords, EltTy.bits .f32 = 32 ∨ (Rect.block (s := S256x128) S256x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .bf16 = 32 ∨ (Rect.block (s := S128x128) S128x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .bf16 = 32 ∨ (Rect.block (s := S128x128) S128x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S32x256x128.size a ≤ S512x256x128.size a
  hwx0_11 : ∀ i : grid0.Coords, EltTy.bits .f32 = 32 ∨ (Rect.block (s := S512x256x128) S32x256x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S32x256x128.size a ≤ S512x256x128.size a
  hwx0_12 : ∀ i : grid0.Coords, EltTy.bits .f32 = 32 ∨ (Rect.block (s := S512x256x128) S32x256x128.size (cc0_transform_12 i) (hinb0_12 i)).WholeWords (EltTy.packing .f32)

variable [Facts₀]

def gather_S1000000x128_S512x256x1_S512x256x128_2_0_n_n_0_2_1128 : GatherDims S1000000x128 S512x256x1 S512x256x128 where
  offsetDims := [2]
  collapsedSliceDims := [0]
  operandBatchingDims := []
  startIndicesBatchingDims := []
  startIndexMap := [0]
  indexVectorDim := 2
  sliceSizes := ![1, 128]
  wf := gather_S1000000x128_S512x256x1_S512x256x128_2_0_n_n_0_2_1128_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def gather_S1000000x128_S256x1_S256x128_1_0_n_n_0_1_1128 : GatherDims S1000000x128 S256x1 S256x128 where
  offsetDims := [1]
  collapsedSliceDims := [0]
  operandBatchingDims := []
  startIndicesBatchingDims := []
  startIndexMap := [0]
  indexVectorDim := 1
  sliceSizes := ![1, 128]
  wf := gather_S1000000x128_S256x1_S256x128_1_0_n_n_0_1_1128_wf
def scatter_S1000000x128_S256x1_S256x128_1_0_0_1 : ScatterDims S1000000x128 S256x1 S256x128 where
  updateWindowDims := [1]
  insertedWindowDims := [0]
  scatterDimsToOperandDims := [0]
  indexVectorDim := 1
  wf := scatter_S1000000x128_S256x1_S256x128_1_0_0_1_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

abbrev win0_0 : Pipeline.Window sig grid0 :=
  Pipeline.Window.ofSpec (Memref.whole main_call0_v8) S32x256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v18) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v24) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg9) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v26) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg11) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v22) S256x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v28) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg15) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_call0_v30) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg17) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v0_1) S32x256x128.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v0_0) S32x256x128.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S256x128 : Shape := ⟨2, ![256, 128]⟩
abbrev S256 : Shape := ⟨1, ![256]⟩
abbrev S256x512 : Shape := ⟨2, ![256, 512]⟩
abbrev S1000000x128 : Shape := ⟨2, ![1000000, 128]⟩
abbrev S128x128 : Shape := ⟨2, ![128, 128]⟩
abbrev S128 : Shape := ⟨1, ![128]⟩
abbrev S_ : Shape := ⟨0, ![]⟩
abbrev S256x512x1 : Shape := ⟨3, ![256, 512, 1]⟩
abbrev S256x512x128 : Shape := ⟨3, ![256, 512, 128]⟩
abbrev S512x256x128 : Shape := ⟨3, ![512, 256, 128]⟩
abbrev S1x128 : Shape := ⟨2, ![1, 128]⟩
abbrev S1x1x128 : Shape := ⟨3, ![1, 1, 128]⟩
abbrev S1x256x128 : Shape := ⟨3, ![1, 256, 128]⟩
abbrev S256x1 : Shape := ⟨2, ![256, 1]⟩

abbrev nBuf : Space → Nat
  | .hbm => 130
  | .vmem => 0
  | .smem => 0
  | _ => 0

abbrev hbmTy0_0 (i : Nat) : BufTy := match i % 128 with
  | 0 => ⟨S256x128, .f32⟩
  | 1 => ⟨S256x128, .f32⟩
  | 2 => ⟨S256, .i32⟩
  | 3 => ⟨S256x512, .i32⟩
  | 4 => ⟨S1000000x128, .f32⟩
  | 5 => ⟨S1000000x128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S128x128, .f32⟩
  | 15 => ⟨S128, .f32⟩
  | 16 => ⟨S128x128, .f32⟩
  | 17 => ⟨S128, .f32⟩
  | 18 => ⟨S_, .i32⟩
  | 19 => ⟨S256x512, .i32⟩
  | 20 => ⟨S256x512, .i1⟩
  | 21 => ⟨S_, .i32⟩
  | 22 => ⟨S256x512, .i32⟩
  | 23 => ⟨S256x512, .i32⟩
  | 24 => ⟨S256x512, .i32⟩
  | 25 => ⟨S256x512x1, .i32⟩
  | 26 => ⟨S256x512x128, .f32⟩
  | 27 => ⟨S512x256x128, .f32⟩
  | 28 => ⟨S128x128, .f32⟩
  | 29 => ⟨S256x128, .f32⟩
  | 30 => ⟨S1x128, .f32⟩
  | 31 => ⟨S256x128, .f32⟩
  | 32 => ⟨S256x128, .f32⟩
  | 33 => ⟨S512x256x128, .f32⟩
  | 34 => ⟨S1x1x128, .f32⟩
  | 35 => ⟨S512x256x128, .f32⟩
  | 36 => ⟨S512x256x128, .f32⟩
  | 37 => ⟨S1x256x128, .f32⟩
  | 38 => ⟨S512x256x128, .f32⟩
  | 39 => ⟨S512x256x128, .f32⟩
  | 40 => ⟨S_, .f32⟩
  | 41 => ⟨S512x256x128, .f32⟩
  | 42 => ⟨S512x256x128, .f32⟩
  | 43 => ⟨S512x256x128, .f32⟩
  | 44 => ⟨S1x1x128, .f32⟩
  | 45 => ⟨S512x256x128, .f32⟩
  | 46 => ⟨S512x256x128, .f32⟩
  | 47 => ⟨S128x128, .f32⟩
  | 48 => ⟨S256x128, .f32⟩
  | 49 => ⟨S1x128, .f32⟩
  | 50 => ⟨S256x128, .f32⟩
  | 51 => ⟨S256x128, .f32⟩
  | 52 => ⟨S512x256x128, .f32⟩
  | 53 => ⟨S1x1x128, .f32⟩
  | 54 => ⟨S512x256x128, .f32⟩
  | 55 => ⟨S512x256x128, .f32⟩
  | 56 => ⟨S1x256x128, .f32⟩
  | 57 => ⟨S512x256x128, .f32⟩
  | 58 => ⟨S512x256x128, .f32⟩
  | 59 => ⟨S_, .f32⟩
  | 60 => ⟨S512x256x128, .f32⟩
  | 61 => ⟨S512x256x128, .f32⟩
  | 62 => ⟨S512x256x128, .f32⟩
  | 63 => ⟨S1x1x128, .f32⟩
  | 64 => ⟨S512x256x128, .f32⟩
  | 65 => ⟨S512x256x128, .f32⟩
  | 66 => ⟨S_, .i32⟩
  | 67 => ⟨S256, .i32⟩
  | 68 => ⟨S256, .i1⟩
  | 69 => ⟨S_, .i32⟩
  | 70 => ⟨S256, .i32⟩
  | 71 => ⟨S256, .i32⟩
  | 72 => ⟨S256, .i32⟩
  | 73 => ⟨S256x1, .i32⟩
  | 74 => ⟨S256x128, .f32⟩
  | 75 => ⟨S_, .f32⟩
  | 76 => ⟨S256x128, .f32⟩
  | 77 => ⟨S256x128, .f32⟩
  | 78 => ⟨S_, .f32⟩
  | 79 => ⟨S256x128, .f32⟩
  | 80 => ⟨S256x128, .f32⟩
  | 81 => ⟨S256x128, .f32⟩
  | 82 => ⟨S256x128, .f32⟩
  | 83 => ⟨S_, .f32⟩
  | 84 => ⟨S256, .f32⟩
  | 85 => ⟨S256x1, .f32⟩
  | 86 => ⟨S256x1, .f32⟩
  | 87 => ⟨S256x128, .f32⟩
  | 88 => ⟨S256x128, .f32⟩
  | 89 => ⟨S_, .i32⟩
  | 90 => ⟨S256, .i32⟩
  | 91 => ⟨S256, .i1⟩
  | 92 => ⟨S_, .i32⟩
  | 93 => ⟨S256, .i32⟩
  | 94 => ⟨S256, .i32⟩
  | 95 => ⟨S256, .i32⟩
  | 96 => ⟨S256x1, .i32⟩
  | 97 => ⟨S1000000x128, .f32⟩
  | 98 => ⟨S_, .i32⟩
  | 99 => ⟨S256, .i32⟩
  | 100 => ⟨S256, .i1⟩
  | 101 => ⟨S_, .i32⟩
  | 102 => ⟨S256, .i32⟩
  | 103 => ⟨S256, .i32⟩
  | 104 => ⟨S256, .i32⟩
  | 105 => ⟨S256x1, .i32⟩
  | 106 => ⟨S256x128, .f32⟩
  | 107 => ⟨S_, .f32⟩
  | 108 => ⟨S256x128, .f32⟩
  | 109 => ⟨S256x128, .f32⟩
  | 110 => ⟨S_, .f32⟩
  | 111 => ⟨S256x128, .f32⟩
  | 112 => ⟨S256x128, .f32⟩
  | 113 => ⟨S256x128, .f32⟩
  | 114 => ⟨S256x128, .f32⟩
  | 115 => ⟨S_, .f32⟩
  | 116 => ⟨S256, .f32⟩
  | 117 => ⟨S256x1, .f32⟩
  | 118 => ⟨S256x1, .f32⟩
  | 119 => ⟨S256x128, .f32⟩
  | 120 => ⟨S256x128, .f32⟩
  | 121 => ⟨S_, .i32⟩
  | 122 => ⟨S256, .i32⟩
  | 123 => ⟨S256, .i1⟩
  | 124 => ⟨S_, .i32⟩
  | 125 => ⟨S256, .i32⟩
  | 126 => ⟨S256, .i32⟩
  | 127 => ⟨S256, .i32⟩
  | _ => ⟨S256x128, .f32⟩

abbrev hbmTy0_1 (i : Nat) : BufTy := match i % 128 with
  | 0 => ⟨S256x1, .i32⟩
  | 1 => ⟨S1000000x128, .f32⟩
  | _ => ⟨S256x128, .f32⟩

abbrev hbmTy (i : Nat) : BufTy := match i / 128 with
  | 0 => hbmTy0_0 i
  | 1 => hbmTy0_1 i
  | _ => ⟨S256x128, .f32⟩

abbrev bufTy : (tb : Table) → Fin (tcTables nBuf tb) → BufTy
  | .hbm, ⟨i, _⟩ => hbmTy i
  | _, _ => ⟨S256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_v0 : Ref sig .tc := ⟨.hbm, 19, rfl⟩
abbrev main_v1 : Ref sig .tc := ⟨.hbm, 20, rfl⟩
abbrev main_c_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_call0_cst : Ref sig .tc := ⟨.hbm, 40, rfl⟩
abbrev main_call0_v0 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_call1_cst : Ref sig .tc := ⟨.hbm, 59, rfl⟩
abbrev main_call1_v0 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_c_1 : Ref sig .tc := ⟨.hbm, 66, rfl⟩
abbrev main_v42 : Ref sig .tc := ⟨.hbm, 67, rfl⟩
abbrev main_v43 : Ref sig .tc := ⟨.hbm, 68, rfl⟩
abbrev main_c_2 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst : Ref sig .tc := ⟨.hbm, 75, rfl⟩
abbrev main_v49 : Ref sig .tc := ⟨.hbm, 76, rfl⟩
abbrev main_v50 : Ref sig .tc := ⟨.hbm, 77, rfl⟩
abbrev main_cst_3 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_4 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_c_5 : Ref sig .tc := ⟨.hbm, 89, rfl⟩
abbrev main_v60 : Ref sig .tc := ⟨.hbm, 90, rfl⟩
abbrev main_v61 : Ref sig .tc := ⟨.hbm, 91, rfl⟩
abbrev main_c_6 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_c_7 : Ref sig .tc := ⟨.hbm, 98, rfl⟩
abbrev main_v67 : Ref sig .tc := ⟨.hbm, 99, rfl⟩
abbrev main_v68 : Ref sig .tc := ⟨.hbm, 100, rfl⟩
abbrev main_c_8 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst_9 : Ref sig .tc := ⟨.hbm, 107, rfl⟩
abbrev main_v74 : Ref sig .tc := ⟨.hbm, 108, rfl⟩
abbrev main_v75 : Ref sig .tc := ⟨.hbm, 109, rfl⟩
abbrev main_cst_10 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_cst_11 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_c_12 : Ref sig .tc := ⟨.hbm, 121, rfl⟩
abbrev main_v85 : Ref sig .tc := ⟨.hbm, 122, rfl⟩
abbrev main_v86 : Ref sig .tc := ⟨.hbm, 123, rfl⟩
abbrev main_c_13 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩

abbrev nD : Nat := 1
abbrev τ : Topo := Topo.v7x

variable {F : FTy → Type} [FloatOps F]

class Facts₀ : Prop where
  bcast_S_S256x512 : S_.BroadcastsInDim S256x512 (![] : Fin 0 → Fin S256x512.rank)
  bcast_S256x512_S256x512x1_0_1 : S256x512.BroadcastsInDim S256x512x1 (![0, 1] : Fin 2 → Fin S256x512x1.rank)
  transposes_S256x512x128_S512x256x128_1_0_2 : S256x512x128.Transposes [1, 0, 2] S512x256x128
  transposes_S128x128_S128x128_1_0 : S128x128.Transposes [1, 0] S128x128
  bcast_S128_S1x128_1 : S128.BroadcastsInDim S1x128 (![1] : Fin 1 → Fin S1x128.rank)
  bcast_S1x128_S256x128_0_1 : S1x128.BroadcastsInDim S256x128 (![0, 1] : Fin 2 → Fin S256x128.rank)
  bcast_S128_S1x1x128_2 : S128.BroadcastsInDim S1x1x128 (![2] : Fin 1 → Fin S1x1x128.rank)
  bcast_S1x1x128_S512x256x128_0_1_2 : S1x1x128.BroadcastsInDim S512x256x128 (![0, 1, 2] : Fin 3 → Fin S512x256x128.rank)
  bcast_S256x128_S1x256x128_1_2 : S256x128.BroadcastsInDim S1x256x128 (![1, 2] : Fin 2 → Fin S1x256x128.rank)
  bcast_S1x256x128_S512x256x128_0_1_2 : S1x256x128.BroadcastsInDim S512x256x128 (![0, 1, 2] : Fin 3 → Fin S512x256x128.rank)
  bcast_S_S512x256x128 : S_.BroadcastsInDim S512x256x128 (![] : Fin 0 → Fin S512x256x128.rank)
  bcast_S_S256 : S_.BroadcastsInDim S256 (![] : Fin 0 → Fin S256.rank)
  bcast_S256_S256x1_0 : S256.BroadcastsInDim S256x1 (![0] : Fin 1 → Fin S256x1.rank)
  bcast_S_S256x128 : S_.BroadcastsInDim S256x128 (![] : Fin 0 → Fin S256x128.rank)
  reducesTo_S256x128_S256_d1 : S256x128.ReducesTo [1] S256
  h_S_ : 0 < S_.numel
  bcast_S256x1_S256x128_0_1 : S256x1.BroadcastsInDim S256x128 (![0, 1] : Fin 2 → Fin S256x128.rank)
  gather_S1000000x128_S256x512x1_S256x512x128_2_0_n_n_0_2_1128_wf : GatherDims.WF S1000000x128 S256x512x1 S256x512x128 [2] [0] [] [0] [] 2 ![1, 128]
  dot_S256x128_S128x128_S256x128_1_0_0_1_n_n_wf : DotDims.WF S256x128 S128x128 S256x128 [1] [0] [0] [1] [] []
  dot_S512x256x128_S128x128_S512x256x128_2_1_01_0_n_n_wf : DotDims.WF S512x256x128 S128x128 S512x256x128 [2] [1] [0, 1] [0] [] []
  gather_S1000000x128_S256x1_S256x128_1_0_n_n_0_1_1128_wf : GatherDims.WF S1000000x128 S256x1 S256x128 [1] [0] [] [0] [] 1 ![1, 128]
  scatter_S1000000x128_S256x1_S256x128_1_0_0_1_wf : ScatterDims.WF S1000000x128 S256x1 S256x128 [1] [0] [0] 1

variable [Facts₀]

def gather_S1000000x128_S256x512x1_S256x512x128_2_0_n_n_0_2_1128 : GatherDims S1000000x128 S256x512x1 S256x512x128 where
  offsetDims := [2]
  collapsedSliceDims := [0]
  operandBatchingDims := []
  startIndicesBatchingDims := []
  startIndexMap := [0]
  indexVectorDim := 2
  sliceSizes := ![1, 128]
  wf := gather_S1000000x128_S256x512x1_S256x512x128_2_0_n_n_0_2_1128_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S512x256x128_S128x128_S512x256x128_2_1_01_0_n_n : DotDims S512x256x128 S128x128 S512x256x128 where
  lhsContracting := [2]
  rhsContracting := [1]
  lhsNonContracting := [0, 1]
  rhsNonContracting := [0]
  lhsBatch := []
  rhsBatch := []
  wf := dot_S512x256x128_S128x128_S512x256x128_2_1_01_0_n_n_wf
def gather_S1000000x128_S256x1_S256x128_1_0_n_n_0_1_1128 : GatherDims S1000000x128 S256x1 S256x128 where
  offsetDims := [1]
  collapsedSliceDims := [0]
  operandBatchingDims := []
  startIndicesBatchingDims := []
  startIndexMap := [0]
  indexVectorDim := 1
  sliceSizes := ![1, 128]
  wf := gather_S1000000x128_S256x1_S256x128_1_0_n_n_0_1_1128_wf
def scatter_S1000000x128_S256x1_S256x128_1_0_0_1 : ScatterDims S1000000x128 S256x1 S256x128 where
  updateWindowDims := [1]
  insertedWindowDims := [0]
  scatterDimsToOperandDims := [0]
  indexVectorDim := 1
  wf := scatter_S1000000x128_S256x1_S256x128_1_0_0_1_wf

class Facts : Prop extends Facts₀ where

variable [Facts]
-- ==== Proof.LibTypedRef.lean ====
/-
  Typed references of a module-local function's operations. An operation of an outlined function reads and writes its
  buffers through typed references: a result is transported to its buffer's type when written and back to the value's
  type when the next operation reads it. The two transports cancel, so a line of such operations composes to the
  plain composition of their functions.
-/
import Idealize.ShloMosaic.Lib.StableHlo

namespace Idealize.ShloMosaic.StableHlo.TRef

variable {sig : RefSig} {Val : EltTy → Type} {T : BufTy}

/-- Written to the buffer and read back: the value. -/
theorem ofBuf_toBuf (x : TRef sig T) (v : T.Contents Val) : x.ofBuf (x.toBuf v) = v := by
  obtain ⟨r, ty_eq, h1, h2⟩ := x
  subst ty_eq
  rfl

/-- Read from the buffer and written back: the contents. -/
theorem toBuf_ofBuf (x : TRef sig T) (v : x.ref.ty.Contents Val) : x.toBuf (x.ofBuf v) = v := by
  obtain ⟨r, ty_eq, h1, h2⟩ := x
  subst ty_eq
  rfl

end Idealize.ShloMosaic.StableHlo.TRef
-- ==== Proof.LibGatherRows.lean ====
/-
  `stablehlo.gather` of whole rows of a matrix, read at an index.

  What `x[idx]` of a table `x : [N, C]` at an integer vector `idx : [E]` lowers to, the vector carried as an
  `[E, 1]` array of start indices: offset axes `[1]`, collapsed axes `[0]`, start index map `[0]`, the index vector on
  axis 1, slice sizes `[1, C]`. Result element `(e, k)` is the table's element `(r, k)`, the row `r` being the start
  word `idx[e, 0]` read as a signed integer and clamped into `[0, N - 1]`: a negative word reads row 0, a word past
  the table its last row.
-/
import Idealize.ShloMosaic.Lib.ValueIdx

noncomputable section

namespace Idealize.ShloMosaic.ValueIdx

open Idealize.ShloMosaic

section Rows
variable {α : Type}

/-- Those dimension numbers for a table `[N, C]`, start indices `[E, 1]` and a result `[E, C]`; their conditions are
    decided on a program's literal shapes. -/
abbrev rowsDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row a start word names in a table of `N` rows: the word read signed, clamped into `[0, N - 1]`. -/
def clampRow (N : Nat) {w : Nat} (v : BitVec w) : Nat := min v.toInt.toNat (N - 1)

theorem clampRow_lt {N : Nat} (hN : 0 < N) {w : Nat} (v : BitVec w) : clampRow N v < N := by
  unfold clampRow; omega

/-- THE GATHER READ AT `(e, k)`: the table at row `clampRow N idx[e, 0]`, column `k`. -/
theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowsDims N C E wf) x idx (ix2 e k)
      = x (ix2 ⟨clampRow N (idx (ix2 e (0 : Fin 1))), clampRow_lt hN _⟩ k) := by
  unfold Host.gather
  congr 1
  funext a
  refine Fin.ext ?_
  match a with
  | ⟨0, _⟩ =>
    show (rowsDims N C E wf).start (ix2 e k) idx 0 + (rowsDims N C E wf).batchCoord (ix2 e k) 0
      + (rowsDims N C E wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C E wf).startIndexMap from List.mem_singleton.mpr rfl)]
    have hsi : (rowsDims N C E wf).siIdx (ix2 e k) ⟨List.idxOf (0 : Fin 2) (rowsDims N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims N C E wf).start (ix2 e k) idx 1 + (rowsDims N C E wf).batchCoord (ix2 e k) 1
      + (rowsDims N C E wf).offCoord (ix2 e k) 1 = k.val
    rw [GatherDims.batchCoord_eq_zero _ _ _ List.not_mem_nil]
    unfold GatherDims.start
    rw [dif_neg (show ¬ (1 : Fin 2) ∈ (rowsDims N C E wf).startIndexMap from
      fun h => absurd (congrArg Fin.val (List.mem_singleton.mp h)) Nat.one_ne_zero)]
    simp only [Nat.add_zero, Nat.zero_add]
    unfold GatherDims.offCoord
    rw [dif_pos (show (1 : Fin 2) ∈ (rowsDims N C E wf).sKept from (GatherDims.mem_sKept _ _).mpr
      ⟨fun h => absurd (congrArg Fin.val (List.mem_singleton.mp h)) Nat.one_ne_zero, List.not_mem_nil⟩)]
    rfl

end Rows

end Idealize.ShloMosaic.ValueIdx

end
-- ==== Proof.LibGatherPlane.lean ====
/-
  Two layouts of one table lookup: `stablehlo.gather` of a rank-2 table at an [R, C, 1] array of start indices, one index word
  per (r, c), the slice a whole line of the table along the OTHER axis.

  * `gather_lines_last`: the table is [N, H], the word picks the ROW, the result is [R, C, H] — what `table[idx]` lowers to:
    result (r, c, h) = table (row, h);
  * `gather_lines_first`: the table is [H, N], the word picks the COLUMN, the result is [H, R, C] — what `table[:, idx]`
    lowers to: result (h, r, c) = table (h, col).

  In both the word is read signed and clamped into [0, N − 1] (`clampRow`, from the whole-row gather's file). So looking up the
  transposed table in the second layout is the first layout's result with its axes rotated.
-/
import Idealize.ShloMosaic.Lib.ValueIdx
import proofs.«150685_j21801253995012_2_alg».proof.Proof.LibGatherRows

noncomputable section

namespace Idealize.ShloMosaic.ValueIdx

open Idealize.ShloMosaic

section Plane
variable {α : Type}

/-- Dimension numbers of `table[idx]` for a table [N, H] and start indices [R, C, 1]. -/
abbrev linesLastDims (N H R C : Nat)
    (wf : GatherDims.WF ⟨2, ![N, H]⟩ ⟨3, ![R, C, 1]⟩ ⟨3, ![R, C, H]⟩ [2] [0] [] [0] [] 2 ![1, H]) :
    GatherDims ⟨2, ![N, H]⟩ ⟨3, ![R, C, 1]⟩ ⟨3, ![R, C, H]⟩ where
  offsetDims := [2]
  collapsedSliceDims := [0]
  operandBatchingDims := []
  startIndicesBatchingDims := []
  startIndexMap := [0]
  indexVectorDim := 2
  sliceSizes := ![1, H]
  wf := wf

/-- Dimension numbers of `table[:, idx]` for a table [H, N] and start indices [R, C, 1]. -/
abbrev linesFirstDims (H N R C : Nat)
    (wf : GatherDims.WF ⟨2, ![H, N]⟩ ⟨3, ![R, C, 1]⟩ ⟨3, ![H, R, C]⟩ [0] [1] [] [1] [] 2 ![H, 1]) :
    GatherDims ⟨2, ![H, N]⟩ ⟨3, ![R, C, 1]⟩ ⟨3, ![H, R, C]⟩ where
  offsetDims := [0]
  collapsedSliceDims := [1]
  operandBatchingDims := []
  startIndicesBatchingDims := []
  startIndexMap := [1]
  indexVectorDim := 2
  sliceSizes := ![H, 1]
  wf := wf

/-- `table[idx]` read at (r, c, h): the table at the row the word at (r, c) names, column h. -/
theorem gather_lines_last {N H R C w : Nat} (hN : 0 < N)
    (wf : GatherDims.WF ⟨2, ![N, H]⟩ ⟨3, ![R, C, 1]⟩ ⟨3, ![R, C, H]⟩ [2] [0] [] [0] [] 2 ![1, H])
    (x : (⟨2, ![N, H]⟩ : Shape).Idx → α) (idx : IVec ⟨3, ![R, C, 1]⟩ w) (r : Fin R) (c : Fin C) (h : Fin H) :
    Host.gather (linesLastDims N H R C wf) x idx (ix3 r c h)
      = x (ix2 ⟨clampRow N (idx (ix3 r c (0 : Fin 1))), clampRow_lt hN _⟩ h) := by
  unfold Host.gather
  congr 1
  funext a
  refine Fin.ext ?_
  match a with
  | ⟨0, _⟩ =>
    show (linesLastDims N H R C wf).start (ix3 r c h) idx 0 + (linesLastDims N H R C wf).batchCoord (ix3 r c h) 0
      + (linesLastDims N H R C wf).offCoord (ix3 r c h) 0 = _
    rw [GatherDims.batchCoord_eq_zero _ _ _ List.not_mem_nil,
      GatherDims.offCoord_eq_zero _ _ _ (fun h' => ((GatherDims.mem_sKept _ _).mp h').1 (List.mem_singleton.mpr rfl))]
    simp only [Nat.add_zero]
    unfold GatherDims.start
    rw [dif_pos (show (0 : Fin 2) ∈ (linesLastDims N H R C wf).startIndexMap from List.mem_singleton.mpr rfl)]
    have hsi : (linesLastDims N H R C wf).siIdx (ix3 r c h) ⟨List.idxOf (0 : Fin 2) (linesLastDims N H R C wf).startIndexMap,
        List.idxOf_lt_length_iff.2 (List.mem_singleton.mpr rfl)⟩ = ix3 r c (0 : Fin 1) := by
      funext b; refine Fin.ext ?_
      match b with
      | ⟨0, _⟩ => rfl
      | ⟨1, _⟩ => rfl
      | ⟨2, _⟩ => rfl
    rw [hsi]
    rfl
  | ⟨1, _⟩ =>
    show (linesLastDims N H R C wf).start (ix3 r c h) idx 1 + (linesLastDims N H R C wf).batchCoord (ix3 r c h) 1
      + (linesLastDims N H R C wf).offCoord (ix3 r c h) 1 = h.val
    rw [GatherDims.batchCoord_eq_zero _ _ _ List.not_mem_nil]
    unfold GatherDims.start
    rw [dif_neg (show ¬ (1 : Fin 2) ∈ (linesLastDims N H R C wf).startIndexMap from
      fun h' => absurd (congrArg Fin.val (List.mem_singleton.mp h')) Nat.one_ne_zero)]
    simp only [Nat.add_zero, Nat.zero_add]
    unfold GatherDims.offCoord
    rw [dif_pos (show (1 : Fin 2) ∈ (linesLastDims N H R C wf).sKept from (GatherDims.mem_sKept _ _).mpr
      ⟨fun h' => absurd (congrArg Fin.val (List.mem_singleton.mp h')) Nat.one_ne_zero, List.not_mem_nil⟩)]
    rfl

/-- `table[:, idx]` read at (h, r, c): the table at row h, the column the word at (r, c) names. -/
theorem gather_lines_first {H N R C w : Nat} (hN : 0 < N)
    (wf : GatherDims.WF ⟨2, ![H, N]⟩ ⟨3, ![R, C, 1]⟩ ⟨3, ![H, R, C]⟩ [0] [1] [] [1] [] 2 ![H, 1])
    (x : (⟨2, ![H, N]⟩ : Shape).Idx → α) (idx : IVec ⟨3, ![R, C, 1]⟩ w) (h : Fin H) (r : Fin R) (c : Fin C) :
    Host.gather (linesFirstDims H N R C wf) x idx (ix3 h r c)
      = x (ix2 h ⟨clampRow N (idx (ix3 r c (0 : Fin 1))), clampRow_lt hN _⟩) := by
  unfold Host.gather
  congr 1
  funext a
  refine Fin.ext ?_
  match a with
  | ⟨0, _⟩ =>
    show (linesFirstDims H N R C wf).start (ix3 h r c) idx 0 + (linesFirstDims H N R C wf).batchCoord (ix3 h r c) 0
      + (linesFirstDims H N R C wf).offCoord (ix3 h r c) 0 = h.val
    rw [GatherDims.batchCoord_eq_zero _ _ _ List.not_mem_nil]
    unfold GatherDims.start
    rw [dif_neg (show ¬ (0 : Fin 2) ∈ (linesFirstDims H N R C wf).startIndexMap from
      fun h' => absurd (congrArg Fin.val (List.mem_singleton.mp h')) Nat.zero_ne_one)]
    simp only [Nat.add_zero, Nat.zero_add]
    unfold GatherDims.offCoord
    rw [dif_pos (show (0 : Fin 2) ∈ (linesFirstDims H N R C wf).sKept from (GatherDims.mem_sKept _ _).mpr
      ⟨fun h' => absurd (congrArg Fin.val (List.mem_singleton.mp h')) Nat.zero_ne_one, List.not_mem_nil⟩)]
    rfl
  | ⟨1, _⟩ =>
    show (linesFirstDims H N R C wf).start (ix3 h r c) idx 1 + (linesFirstDims H N R C wf).batchCoord (ix3 h r c) 1
      + (linesFirstDims H N R C wf).offCoord (ix3 h r c) 1 = _
    rw [GatherDims.batchCoord_eq_zero _ _ _ List.not_mem_nil,
      GatherDims.offCoord_eq_zero _ _ _ (fun h' => ((GatherDims.mem_sKept _ _).mp h').1 (List.mem_singleton.mpr rfl))]
    simp only [Nat.add_zero]
    unfold GatherDims.start
    rw [dif_pos (show (1 : Fin 2) ∈ (linesFirstDims H N R C wf).startIndexMap from List.mem_singleton.mpr rfl)]
    have hsi : (linesFirstDims H N R C wf).siIdx (ix3 h r c) ⟨List.idxOf (1 : Fin 2) (linesFirstDims H N R C wf).startIndexMap,
        List.idxOf_lt_length_iff.2 (List.mem_singleton.mpr rfl)⟩ = ix3 r c (0 : Fin 1) := by
      funext b; refine Fin.ext ?_
      match b with
      | ⟨0, _⟩ => rfl
      | ⟨1, _⟩ => rfl
      | ⟨2, _⟩ => rfl
    rw [hsi]
    rfl

end Plane

end Idealize.ShloMosaic.ValueIdx

end
-- ==== Proof.LibPlainDot.lean ====
/-
  A matrix product contracted over ONE axis, read at an entry as a sum over `Fin n`.

  The library reads a product at an entry `j` as a sum over the contraction's own index type, the operands read at the
  product's operand indices. When the contraction has one axis of extent `n`, and the operand indices at `j` are known
  functions `li`, `ri` of that axis's coordinate, the sum is over `k : Fin n` of the left operand at `li k` times the
  right operand at `ri k`. Also here: two rank-2 indices are equal when their coordinates are.
-/
import Idealize.ShloMosaic.Lib.ValueIdx
import Idealize.ShloMosaic.PureOps.Ideal.Laws

noncomputable section

namespace Cert.LibPlainDot

open Idealize.ShloMosaic

/-- Two indices of a rank-2 shape are equal when their two coordinates are equal as numbers. -/
theorem ext2 {n0 n1 : ℕ} (i i' : (⟨2, ![n0, n1]⟩ : Shape).Idx) (h0 : (i 0).val = (i' 0).val) (h1 : (i 1).val = (i' 1).val) :
    i = i' :=
  funext fun a => Fin.ext (match a with
    | ⟨0, _⟩ => h0
    | ⟨1, _⟩ => h1)

/-- The sum over a one-axis contraction, re-indexed by the axis's coordinate `k : Fin n`: given what the two operand
    indices are at each contraction index (`hl`, `hr`, stated through the coordinate), the product's sum at `j` is
    `∑ k, f (li k) * g (ri k)`. -/
theorem sum_contr {sl sr so : Shape} (d : DotDims sl sr so) (n : ℕ) (hrk : d.contr.rank = 1)
    (hs : d.contr.size ⟨0, by omega⟩ = n) (j : so.Idx) (f : sl.Idx → EReal) (g : sr.Idx → EReal)
    (li : Fin n → sl.Idx) (ri : Fin n → sr.Idx)
    (hl : ∀ q : d.contr.Idx, d.lhsIdx j q = li (ValueIdx.contrEquiv1 d n hrk hs q))
    (hr : ∀ q : d.contr.Idx, d.rhsIdx j q = ri (ValueIdx.contrEquiv1 d n hrk hs q)) :
    ∑ q : d.contr.Idx, f (d.lhsIdx j q) * g (d.rhsIdx j q) = ∑ k : Fin n, f (li k) * g (ri k) := by
  rw [← Equiv.sum_comp (ValueIdx.contrEquiv1 d n hrk hs)]
  exact Finset.sum_congr rfl fun q _ => by rw [hl q, hr q]

/-- A product into a zero accumulator on the vector unit, at the exact instance, read at an entry over `Fin n`. -/
theorem matmul_zero_apply {sl sr so : Shape} {φ₁ φ₂ : FTy} (d : DotDims sl sr so) (prec : Option ContractPrecision)
    (n : ℕ) (hrk : d.contr.rank = 1) (hs : d.contr.size ⟨0, by omega⟩ = n)
    (lhs : FVec Ideal sl φ₁) (rhs : FVec Ideal sr φ₂) (j : so.Idx)
    (li : Fin n → sl.Idx) (ri : Fin n → sr.Idx)
    (hl : ∀ q : d.contr.Idx, d.lhsIdx j q = li (ValueIdx.contrEquiv1 d n hrk hs q))
    (hr : ∀ q : d.contr.Idx, d.rhsIdx j q = ri (ValueIdx.contrEquiv1 d n hrk hs q)) :
    FloatOps.matmul d prec lhs rhs (constant so .f32 0x00000000#32) j = ∑ k : Fin n, lhs (li k) * rhs (ri k) :=
  (Ideal.matmul_constant_zero_apply d prec lhs rhs j).trans (sum_contr d n hrk hs j lhs rhs li ri hl hr)

/-- A host product at the exact instance, read at an entry over `Fin n`. -/
theorem dotGeneral_apply {sl sr so : Shape} {φ₁ φ₂ : FTy} (d : DotDims sl sr so) (prec : Option ContractPrecision)
    (sched : HostSchedule) (n : ℕ) (hrk : d.contr.rank = 1) (hs : d.contr.size ⟨0, by omega⟩ = n)
    (lhs : FVec Ideal sl φ₁) (rhs : FVec Ideal sr φ₂) (j : so.Idx)
    (li : Fin n → sl.Idx) (ri : Fin n → sr.Idx)
    (hl : ∀ q : d.contr.Idx, d.lhsIdx j q = li (ValueIdx.contrEquiv1 d n hrk hs q))
    (hr : ∀ q : d.contr.Idx, d.rhsIdx j q = ri (ValueIdx.contrEquiv1 d n hrk hs q)) :
    FloatOps.dotGeneral d prec sched lhs rhs j = ∑ k : Fin n, lhs (li k) * rhs (ri k) :=
  (Ideal.dotGeneral_apply d prec sched lhs rhs j).trans (sum_contr d n hrk hs j lhs rhs li ri hl hr)

end Cert.LibPlainDot

end
-- ==== Proof.Scores.lean ====
/-
  The relation-memory scores and the memory update, as functions of the argument arrays.

  For a batch of 256 samples with features v (256 x 128) and, per sample, 512 table rows named by an integer array
  idx (256 x 512) into a memory bank mem (1000000 x 128), one branch of the network computes, for every listed
  row k, sample b and output feature e,

      a[b, j]       = sum_d v[b, d] * W1[j, d] + b1[j]                          (the sample's projection)
      w[k, b, d]    = mem[row(idx[b, k]), d]                                     (the gathered table row)
      h[k, b, j]    = max (a[b, j] - (sum_d w[k, b, d] * W2[j, d] + b2[j])) 0    (the hidden layer)
      out[k, b, e]  = sum_j h[k, b, j] * Wv[e, j] + bv[e]                        (the score)

  on the extended reals, where row(x) reads the start word x as jnp does (a negative word counts from the end of the
  table) and clamps it into the table. Every sum here is a finite sum in a commutative monoid, so it does not matter in
  which order, in which tiling of k, or with which transposed copy of a weight matrix a program computes it.
-/
import Idealize.ShloMosaic.Lib.ValueIdx
import Idealize.ShloMosaic.PureOps.Ideal.Laws
import proofs.«150685_j21801253995012_2_alg».proof.Proof.LibGatherRows

noncomputable section

namespace Cert.Scores

open Idealize.ShloMosaic Idealize.ShloMosaic.ValueIdx

abbrev T256x128 : Shape := ⟨2, ![256, 128]⟩
abbrev T128x128 : Shape := ⟨2, ![128, 128]⟩
abbrev T128 : Shape := ⟨1, ![128]⟩
abbrev T256x512 : Shape := ⟨2, ![256, 512]⟩
abbrev T1000000x128 : Shape := ⟨2, ![1000000, 128]⟩
abbrev T512x256x128 : Shape := ⟨3, ![512, 256, 128]⟩

/-- A start word as jnp reads it: a negative word counts from the end of the table of 1000000 rows. -/
def wrapWord (x : BitVec 32) : BitVec 32 :=
  Scalar.select (IntOp.cmpi .slt x 0#32) (IntOp.addi x 1000000#32) x

/-- The table row a start word names: the wrapped word read signed and clamped into the table. -/
def rowOf (x : BitVec 32) : Fin 1000000 := ⟨clampRow 1000000 (wrapWord x), clampRow_lt (by decide) _⟩

/-- The gathered row: listed row k of sample b, feature d. -/
def negRow (idx : T256x512.Idx → BitVec 32) (mem : T1000000x128.Idx → EReal) (k : Fin 512) (b : Fin 256) (d : Fin 128) :
    EReal :=
  mem (ix2 (rowOf (idx (ix2 b k))) d)

/-- A sample's projection: a[b, j] = sum_d v[b, d] * W1[j, d] + b1[j]. -/
def proj (v : Fin 256 → Fin 128 → EReal) (W1 : Fin 128 → Fin 128 → EReal) (b1 : Fin 128 → EReal) (b : Fin 256) (j : Fin 128) :
    EReal :=
  (∑ d : Fin 128, v b d * W1 j d) + b1 j

/-- The hidden layer: h[k, b, j] = max (a[b, j] - (sum_d w[k, b, d] * W2[j, d] + b2[j])) 0. -/
def hidden {K : Nat} (w : Fin K → Fin 256 → Fin 128 → EReal) (a : Fin 256 → Fin 128 → EReal) (W2 : Fin 128 → Fin 128 → EReal)
    (b2 : Fin 128 → EReal) (k : Fin K) (b : Fin 256) (j : Fin 128) : EReal :=
  max (a b j - ((∑ d : Fin 128, w k b d * W2 j d) + b2 j)) (Ideal.ofBits .f32 0x00000000#32)

/-- The score: out[k, b, e] = sum_j h[k, b, j] * Wv[e, j] + bv[e]. -/
def score {K : Nat} (w : Fin K → Fin 256 → Fin 128 → EReal) (a : Fin 256 → Fin 128 → EReal) (W2 : Fin 128 → Fin 128 → EReal)
    (b2 : Fin 128 → EReal) (Wv : Fin 128 → Fin 128 → EReal) (bv : Fin 128 → EReal) (k : Fin K) (b : Fin 256) (e : Fin 128) : EReal :=
  (∑ j : Fin 128, hidden w a W2 b2 k b j * Wv e j) + bv e

/-- The score depends only on the listed row's features, the sample's projection, and the weights and biases. -/
theorem score_congr {K K' : Nat} (w : Fin K → Fin 256 → Fin 128 → EReal) (w' : Fin K' → Fin 256 → Fin 128 → EReal)
    (a a' : Fin 256 → Fin 128 → EReal) (W2 W2' : Fin 128 → Fin 128 → EReal) (b2 b2' : Fin 128 → EReal)
    (Wv Wv' : Fin 128 → Fin 128 → EReal) (bv bv' : Fin 128 → EReal) (k : Fin K) (k' : Fin K') (b : Fin 256) (e : Fin 128)
    (hw : ∀ d, w k b d = w' k' b d) (ha : ∀ j, a b j = a' b j) (hW2 : ∀ j d, W2 j d = W2' j d) (hb2 : ∀ j, b2 j = b2' j)
    (hWv : ∀ j, Wv e j = Wv' e j) (hbv : bv e = bv' e) :
    score w a W2 b2 Wv bv k b e = score w' a' W2' b2' Wv' bv' k' b e := by
  unfold score hidden
  simp only [hw, ha, hW2, hb2, hWv, hbv]

/-- An array [256, 128] by coordinates. -/
def feat (v : T256x128.Idx → EReal) : Fin 256 → Fin 128 → EReal := fun b d => v (ix2 b d)
/-- A weight matrix [128, 128] by coordinates, as given: W[j, d]. -/
def mat (W : T128x128.Idx → EReal) : Fin 128 → Fin 128 → EReal := fun j d => W (ix2 j d)
/-- A bias row [128] by its coordinate. -/
def row (b : T128.Idx → EReal) : Fin 128 → EReal := fun j => b (ix1 j)

/-- One branch's whole result array [512, 256, 128] from the argument arrays. -/
def scores (v : T256x128.Idx → EReal) (W1 : T128x128.Idx → EReal) (b1 : T128.Idx → EReal) (W2 : T128x128.Idx → EReal)
    (b2 : T128.Idx → EReal) (Wv : T128x128.Idx → EReal) (bv : T128.Idx → EReal) (idx : T256x512.Idx → BitVec 32)
    (mem : T1000000x128.Idx → EReal) : T512x256x128.Idx → EReal :=
  fun i => score (negRow idx mem) (proj (feat v) (mat W1) (row b1)) (mat W2) (row b2) (mat Wv) (row bv) (i 0) (i 1) (i 2)

/-- The result array at an index written by its coordinates. -/
theorem scores_ix3 (v : T256x128.Idx → EReal) (W1 : T128x128.Idx → EReal) (b1 : T128.Idx → EReal) (W2 : T128x128.Idx → EReal)
    (b2 : T128.Idx → EReal) (Wv : T128x128.Idx → EReal) (bv : T128.Idx → EReal) (idx : T256x512.Idx → BitVec 32)
    (mem : T1000000x128.Idx → EReal) (k : Fin 512) (b : Fin 256) (e : Fin 128) :
    scores v W1 b1 W2 b2 Wv bv idx mem (ix3 k b e)
      = score (negRow idx mem) (proj (feat v) (mat W1) (row b1)) (mat W2) (row b2) (mat Wv) (row bv) k b e := rfl

end Cert.Scores

end
-- ==== Proof.KernelEntry.lean ====
/-
  The arrays the kernel's region finds, as functions of the argument arrays.

  Before the region the program gathers the listed table rows in the tile layout (the index array transposed first, so row k of
  sample b is named by idx[b, k]), forms the two sample projections a = v W1ᵀ + b1, and transposes the four remaining weight matrices;
  every change of float format on the way is the identity on the extended reals. Read at an index: the gathered array at (k, b, d) is
  `Scores.negRow`, a projection at (b, j) is `Scores.proj`, a transposed weight copy at (d, j) is the weight at (j, d).
-/
import proofs.«150685_j21801253995012_2_alg».proof.Proof.KernelIdealFrame
import proofs.«150685_j21801253995012_2_alg».proof.Proof.LibTypedRef
import proofs.«150685_j21801253995012_2_alg».proof.Proof.LibGatherPlane
import proofs.«150685_j21801253995012_2_alg».proof.Proof.LibPlainDot
import proofs.«150685_j21801253995012_2_alg».proof.Proof.Scores
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

noncomputable section

namespace Cert.KernelEntry

open Cert.KernelIdeal Cert.KernelIdeal.Gen Cert.KernelIdeal.GenP Idealize.ShloMosaic Idealize.ShloMosaic.TcCoe Idealize.SL.Sem
open Idealize.ShloMosaic.StableHlo Idealize.ShloMosaic.ValueIdx Cert.Scores

/-! ## The typed references' transports at this program's buffers

    An operation of the outlined host function writes its result through its buffer's type and reads its operands back through
    theirs; at a buffer of the printed signature both transports are the identity. One statement per buffer, over a variable value. -/

section Transports
variable {Val : EltTy → Type}
theorem toBuf_main_call0_v8 (h1 : (main_call0_v8 : Ref sig .tc).ty = (⟨S512x256x128, .bf16⟩ : BufTy)) (h2 : (main_call0_v8 : Ref sig .tc).space ≠ .host)
    (h3 : (main_call0_v8 : Ref sig .tc).isScoped = false) (v : (⟨S512x256x128, .bf16⟩ : BufTy).Contents Val) :
    (TRef.of (sig := sig) (T := ⟨S512x256x128, .bf16⟩) main_call0_v8 h1 h2 h3).toBuf v = v := rfl
theorem toBuf_main_call0_v18 (h1 : (main_call0_v18 : Ref sig .tc).ty = (⟨S256x128, .f32⟩ : BufTy)) (h2 : (main_call0_v18 : Ref sig .tc).space ≠ .host)
    (h3 : (main_call0_v18 : Ref sig .tc).isScoped = false) (v : (⟨S256x128, .f32⟩ : BufTy).Contents Val) :
    (TRef.of (sig := sig) (T := ⟨S256x128, .f32⟩) main_call0_v18 h1 h2 h3).toBuf v = v := rfl
theorem toBuf_main_call0_v22 (h1 : (main_call0_v22 : Ref sig .tc).ty = (⟨S256x128, .f32⟩ : BufTy)) (h2 : (main_call0_v22 : Ref sig .tc).space ≠ .host)
    (h3 : (main_call0_v22 : Ref sig .tc).isScoped = false) (v : (⟨S256x128, .f32⟩ : BufTy).Contents Val) :
    (TRef.of (sig := sig) (T := ⟨S256x128, .f32⟩) main_call0_v22 h1 h2 h3).toBuf v = v := rfl
theorem toBuf_main_call0_v24 (h1 : (main_call0_v24 : Ref sig .tc).ty = (⟨S128x128, .bf16⟩ : BufTy)) (h2 : (main_call0_v24 : Ref sig .tc).space ≠ .host)
    (h3 : (main_call0_v24 : Ref sig .tc).isScoped = false) (v : (⟨S128x128, .bf16⟩ : BufTy).Contents Val) :
    (TRef.of (sig := sig) (T := ⟨S128x128, .bf16⟩) main_call0_v24 h1 h2 h3).toBuf v = v := rfl
theorem toBuf_main_call0_v26 (h1 : (main_call0_v26 : Ref sig .tc).ty = (⟨S128x128, .bf16⟩ : BufTy)) (h2 : (main_call0_v26 : Ref sig .tc).space ≠ .host)
    (h3 : (main_call0_v26 : Ref sig .tc).isScoped = false) (v : (⟨S128x128, .bf16⟩ : BufTy).Contents Val) :
    (TRef.of (sig := sig) (T := ⟨S128x128, .bf16⟩) main_call0_v26 h1 h2 h3).toBuf v = v := rfl
theorem toBuf_main_call0_v28 (h1 : (main_call0_v28 : Ref sig .tc).ty = (⟨S128x128, .bf16⟩ : BufTy)) (h2 : (main_call0_v28 : Ref sig .tc).space ≠ .host)
    (h3 : (main_call0_v28 : Ref sig .tc).isScoped = false) (v : (⟨S128x128, .bf16⟩ : BufTy).Contents Val) :
    (TRef.of (sig := sig) (T := ⟨S128x128, .bf16⟩) main_call0_v28 h1 h2 h3).toBuf v = v := rfl
theorem toBuf_main_call0_v30 (h1 : (main_call0_v30 : Ref sig .tc).ty = (⟨S128x128, .bf16⟩ : BufTy)) (h2 : (main_call0_v30 : Ref sig .tc).space ≠ .host)
    (h3 : (main_call0_v30 : Ref sig .tc).isScoped = false) (v : (⟨S128x128, .bf16⟩ : BufTy).Contents Val) :
    (TRef.of (sig := sig) (T := ⟨S128x128, .bf16⟩) main_call0_v30 h1 h2 h3).toBuf v = v := rfl
theorem toBuf_main_v0_2 (h1 : (main_v0_2 : Ref sig .tc).ty = (⟨S1000000x128, .f32⟩ : BufTy)) (h2 : (main_v0_2 : Ref sig .tc).space ≠ .host)
    (h3 : (main_v0_2 : Ref sig .tc).isScoped = false) (v : (⟨S1000000x128, .f32⟩ : BufTy).Contents Val) :
    (TRef.of (sig := sig) (T := ⟨S1000000x128, .f32⟩) main_v0_2 h1 h2 h3).toBuf v = v := rfl
theorem toBuf_main_v0_3 (h1 : (main_v0_3 : Ref sig .tc).ty = (⟨S1000000x128, .f32⟩ : BufTy)) (h2 : (main_v0_3 : Ref sig .tc).space ≠ .host)
    (h3 : (main_v0_3 : Ref sig .tc).isScoped = false) (v : (⟨S1000000x128, .f32⟩ : BufTy).Contents Val) :
    (TRef.of (sig := sig) (T := ⟨S1000000x128, .f32⟩) main_v0_3 h1 h2 h3).toBuf v = v := rfl
theorem ofBuf_main_arg0 (h1 : (main_arg0 : Ref sig .tc).ty = (⟨S256x128, .f32⟩ : BufTy)) (h2 : (main_arg0 : Ref sig .tc).space ≠ .host)
    (h3 : (main_arg0 : Ref sig .tc).isScoped = false) (v : (main_arg0 : Ref sig .tc).ty.Contents Val) :
    (TRef.of (sig := sig) (T := ⟨S256x128, .f32⟩) main_arg0 h1 h2 h3).ofBuf v = v := rfl
theorem ofBuf_main_arg1 (h1 : (main_arg1 : Ref sig .tc).ty = (⟨S256x128, .f32⟩ : BufTy)) (h2 : (main_arg1 : Ref sig .tc).space ≠ .host)
    (h3 : (main_arg1 : Ref sig .tc).isScoped = false) (v : (main_arg1 : Ref sig .tc).ty.Contents Val) :
    (TRef.of (sig := sig) (T := ⟨S256x128, .f32⟩) main_arg1 h1 h2 h3).ofBuf v = v := rfl
theorem ofBuf_main_arg2 (h1 : (main_arg2 : Ref sig .tc).ty = (⟨S256, .i32⟩ : BufTy)) (h2 : (main_arg2 : Ref sig .tc).space ≠ .host)
    (h3 : (main_arg2 : Ref sig .tc).isScoped = false) (v : (main_arg2 : Ref sig .tc).ty.Contents Val) :
    (TRef.of (sig := sig) (T := ⟨S256, .i32⟩) main_arg2 h1 h2 h3).ofBuf v = v := rfl
theorem ofBuf_main_arg3 (h1 : (main_arg3 : Ref sig .tc).ty = (⟨S256x512, .i32⟩ : BufTy)) (h2 : (main_arg3 : Ref sig .tc).space ≠ .host)
    (h3 : (main_arg3 : Ref sig .tc).isScoped = false) (v : (main_arg3 : Ref sig .tc).ty.Contents Val) :
    (TRef.of (sig := sig) (T := ⟨S256x512, .i32⟩) main_arg3 h1 h2 h3).ofBuf v = v := rfl
theorem ofBuf_main_arg4 (h1 : (main_arg4 : Ref sig .tc).ty = (⟨S1000000x128, .f32⟩ : BufTy)) (h2 : (main_arg4 : Ref sig .tc).space ≠ .host)
    (h3 : (main_arg4 : Ref sig .tc).isScoped = false) (v : (main_arg4 : Ref sig .tc).ty.Contents Val) :
    (TRef.of (sig := sig) (T := ⟨S1000000x128, .f32⟩) main_arg4 h1 h2 h3).ofBuf v = v := rfl
theorem ofBuf_main_arg5 (h1 : (main_arg5 : Ref sig .tc).ty = (⟨S1000000x128, .f32⟩ : BufTy)) (h2 : (main_arg5 : Ref sig .tc).space ≠ .host)
    (h3 : (main_arg5 : Ref sig .tc).isScoped = false) (v : (main_arg5 : Ref sig .tc).ty.Contents Val) :
    (TRef.of (sig := sig) (T := ⟨S1000000x128, .f32⟩) main_arg5 h1 h2 h3).ofBuf v = v := rfl
theorem ofBuf_main_arg6 (h1 : (main_arg6 : Ref sig .tc).ty = (⟨S128x128, .f32⟩ : BufTy)) (h2 : (main_arg6 : Ref sig .tc).space ≠ .host)
    (h3 : (main_arg6 : Ref sig .tc).isScoped = false) (v : (main_arg6 : Ref sig .tc).ty.Contents Val) :
    (TRef.of (sig := sig) (T := ⟨S128x128, .f32⟩) main_arg6 h1 h2 h3).ofBuf v = v := rfl
theorem ofBuf_main_arg8 (h1 : (main_arg8 : Ref sig .tc).ty = (⟨S128x128, .f32⟩ : BufTy)) (h2 : (main_arg8 : Ref sig .tc).space ≠ .host)
    (h3 : (main_arg8 : Ref sig .tc).isScoped = false) (v : (main_arg8 : Ref sig .tc).ty.Contents Val) :
    (TRef.of (sig := sig) (T := ⟨S128x128, .f32⟩) main_arg8 h1 h2 h3).ofBuf v = v := rfl
theorem ofBuf_main_arg10 (h1 : (main_arg10 : Ref sig .tc).ty = (⟨S128x128, .f32⟩ : BufTy)) (h2 : (main_arg10 : Ref sig .tc).space ≠ .host)
    (h3 : (main_arg10 : Ref sig .tc).isScoped = false) (v : (main_arg10 : Ref sig .tc).ty.Contents Val) :
    (TRef.of (sig := sig) (T := ⟨S128x128, .f32⟩) main_arg10 h1 h2 h3).ofBuf v = v := rfl
theorem ofBuf_main_arg12 (h1 : (main_arg12 : Ref sig .tc).ty = (⟨S128x128, .f32⟩ : BufTy)) (h2 : (main_arg12 : Ref sig .tc).space ≠ .host)
    (h3 : (main_arg12 : Ref sig .tc).isScoped = false) (v : (main_arg12 : Ref sig .tc).ty.Contents Val) :
    (TRef.of (sig := sig) (T := ⟨S128x128, .f32⟩) main_arg12 h1 h2 h3).ofBuf v = v := rfl
theorem ofBuf_main_arg14 (h1 : (main_arg14 : Ref sig .tc).ty = (⟨S128x128, .f32⟩ : BufTy)) (h2 : (main_arg14 : Ref sig .tc).space ≠ .host)
    (h3 : (main_arg14 : Ref sig .tc).isScoped = false) (v : (main_arg14 : Ref sig .tc).ty.Contents Val) :
    (TRef.of (sig := sig) (T := ⟨S128x128, .f32⟩) main_arg14 h1 h2 h3).ofBuf v = v := rfl
theorem ofBuf_main_arg16 (h1 : (main_arg16 : Ref sig .tc).ty = (⟨S128x128, .f32⟩ : BufTy)) (h2 : (main_arg16 : Ref sig .tc).space ≠ .host)
    (h3 : (main_arg16 : Ref sig .tc).isScoped = false) (v : (main_arg16 : Ref sig .tc).ty.Contents Val) :
    (TRef.of (sig := sig) (T := ⟨S128x128, .f32⟩) main_arg16 h1 h2 h3).ofBuf v = v := rfl
theorem ofBuf_main_arg7 (h1 : (main_arg7 : Ref sig .tc).ty = (⟨S128, .f32⟩ : BufTy)) (h2 : (main_arg7 : Ref sig .tc).space ≠ .host)
    (h3 : (main_arg7 : Ref sig .tc).isScoped = false) (v : (main_arg7 : Ref sig .tc).ty.Contents Val) :
    (TRef.of (sig := sig) (T := ⟨S128, .f32⟩) main_arg7 h1 h2 h3).ofBuf v = v := rfl
theorem ofBuf_main_arg13 (h1 : (main_arg13 : Ref sig .tc).ty = (⟨S128, .f32⟩ : BufTy)) (h2 : (main_arg13 : Ref sig .tc).space ≠ .host)
    (h3 : (main_arg13 : Ref sig .tc).isScoped = false) (v : (main_arg13 : Ref sig .tc).ty.Contents Val) :
    (TRef.of (sig := sig) (T := ⟨S128, .f32⟩) main_arg13 h1 h2 h3).ofBuf v = v := rfl

end Transports

variable (m : (ℓ : Loc nD τ sig) → Buf (Elt Ideal) ℓ)

/-! ## The three kinds of array, over any operands -/

/-- The gather in the tile layout at (k, b, d): the index array is transposed first, each word wrapped as jnp does, and the table
    row it names (clamped into the table) is read at feature d. -/
theorem gathered_at (idx : IVec S256x512 32) (mem : FVec Ideal S1000000x128 .f32) (k : Fin 512) (b : Fin 256) (d : Fin 128) :
    truncf (F := Ideal) .bf16
      (Host.gather gather_S1000000x128_S512x256x1_S512x256x128_2_0_n_n_0_2_1128 mem
        (broadcastInDim S512x256x1 ![0, 1] bcast_S512x256_S512x256x1_0_1
          (select
            (cmpi CmpIPredicate.slt (transpose S512x256 [1, 0] idx transposes_S256x512_S512x256_1_0)
              (broadcastInDim S512x256 ![] bcast_S_S512x256 (constantI S_ 32 0#32)))
            (addi (transpose S512x256 [1, 0] idx transposes_S256x512_S512x256_1_0)
              (broadcastInDim S512x256 ![] bcast_S_S512x256 (constantI S_ 32 1000000#32)))
            (transpose S512x256 [1, 0] idx transposes_S256x512_S512x256_1_0))))
      bitsLt_bf16_f32 (ix3 k b d) = negRow idx mem k b d := by
  rw [truncf_apply]
  refine (gather_lines_last (N := 1000000) (H := 128) (R := 512) (C := 256) (by decide)
    Facts₀.gather_S1000000x128_S512x256x1_S512x256x128_2_0_n_n_0_2_1128_wf mem _ k b d).trans ?_
  unfold negRow rowOf
  rw [broadcastInDim_apply _ bcast_S512x256_S512x256x1_0_1 _ (ix3 k b (0 : Fin 1)) (ix2 k b) (fun a => by
    match a with
    | ⟨0, _⟩ => show k.val = if (512 : Nat) = 1 then 0 else k.val; rw [if_neg (by decide)]
    | ⟨1, _⟩ => show b.val = if (256 : Nat) = 1 then 0 else b.val; rw [if_neg (by decide)])]
  have hw : (select
      (cmpi CmpIPredicate.slt (transpose S512x256 [1, 0] idx transposes_S256x512_S512x256_1_0)
        (broadcastInDim S512x256 ![] bcast_S_S512x256 (constantI S_ 32 0#32)))
      (addi (transpose S512x256 [1, 0] idx transposes_S256x512_S512x256_1_0)
        (broadcastInDim S512x256 ![] bcast_S_S512x256 (constantI S_ 32 1000000#32)))
      (transpose S512x256 [1, 0] idx transposes_S256x512_S512x256_1_0)) (ix2 k b) = wrapWord (idx (ix2 b k)) := by
    show wrapWord (transpose S512x256 [1, 0] idx transposes_S256x512_S512x256_1_0 (ix2 k b)) = _
    rw [transpose_ix2_apply]
  rw [hw]

theorem dot_lhs0 (i : S256x128.Idx) (q : dot_S256x128_S128x128_S256x128_1_0_0_1_n_n.contr.Idx) :
    (dot_S256x128_S128x128_S256x128_1_0_0_1_n_n.lhsIdx i q 0).val = (i 0).val := by
  unfold DotDims.lhsIdx
  rw [dif_neg (show ¬(0 : Fin S256x128.rank) ∈ dot_S256x128_S128x128_S256x128_1_0_0_1_n_n.lhsBatch by decide),
    dif_pos (show (0 : Fin S256x128.rank) ∈ dot_S256x128_S128x128_S256x128_1_0_0_1_n_n.lhsNonContracting by decide)]
  rfl

theorem dot_rhs1 (i : S256x128.Idx) (q : dot_S256x128_S128x128_S256x128_1_0_0_1_n_n.contr.Idx) :
    (dot_S256x128_S128x128_S256x128_1_0_0_1_n_n.rhsIdx i q 1).val = (i 1).val := by
  unfold DotDims.rhsIdx
  rw [dif_neg (show ¬(1 : Fin S128x128.rank) ∈ dot_S256x128_S128x128_S256x128_1_0_0_1_n_n.rhsBatch by decide),
    dif_pos (show (1 : Fin S128x128.rank) ∈ dot_S256x128_S128x128_S256x128_1_0_0_1_n_n.rhsNonContracting by decide)]
  rfl

/-- A sample projection at (b, j): the product with the transposed weight matrix is the sum over d of v[b, d] * W1[j, d]; the
    bias row is repeated down the samples. -/
theorem projection_at (v : FVec Ideal S256x128 .f32) (W1 : FVec Ideal S128x128 .f32) (b1 : FVec Ideal S128 .f32)
    (b : Fin 256) (j : Fin 128) :
    addf
      (Host.dotGeneral dot_S256x128_S128x128_S256x128_1_0_0_1_n_n none (truncf .bf16 v bitsLt_bf16_f32)
        (truncf .bf16 (transpose S128x128 [1, 0] W1 transposes_S128x128_S128x128_1_0) bitsLt_bf16_f32))
      (broadcastInDim S256x128 ![0, 1] bcast_S1x128_S256x128_0_1 (broadcastInDim S1x128 ![1] bcast_S128_S1x128_1 b1))
      (ix2 b j) = proj (feat v) (mat W1) (row b1) b j := by
  rw [addf_apply]
  unfold proj
  congr 1
  · simp only [Host.dotGeneral]
    rw [Cert.LibPlainDot.dotGeneral_apply dot_S256x128_S128x128_S256x128_1_0_0_1_n_n none _ 128 rfl rfl _ _ (ix2 b j)
      (fun d => ix2 b d) (fun d => ix2 d j)
      (fun qq => Cert.LibPlainDot.ext2 _ _ (dot_lhs0 _ _)
        (dot_S256x128_S128x128_S256x128_1_0_0_1_n_n.lhsIdx_val_of_single rfl (ix2 b j) qq))
      (fun qq => Cert.LibPlainDot.ext2 _ _
        (dot_S256x128_S128x128_S256x128_1_0_0_1_n_n.rhsIdx_val_of_single rfl (ix2 b j) qq) (dot_rhs1 _ _))]
    refine Finset.sum_congr rfl fun d _ => ?_
    rw [truncf_apply, truncf_apply, transpose_ix2_apply]
    rfl
  · rw [broadcastInDim_apply _ bcast_S1x128_S256x128_0_1 _ (ix2 b j) (ix2 (0 : Fin 1) j) (fun a => by
      match a with
      | ⟨0, _⟩ => rfl
      | ⟨1, _⟩ => show j.val = if (128 : Nat) = 1 then 0 else j.val; rw [if_neg (by decide)])]
    rw [broadcastInDim_apply _ bcast_S128_S1x128_1 _ (ix2 (0 : Fin 1) j) (ix1 j) (fun a => by
      match a with
      | ⟨0, _⟩ => show j.val = if (128 : Nat) = 1 then 0 else j.val; rw [if_neg (by decide)])]
    rfl

/-- A transposed weight copy at (d, j) is the weight at (j, d). -/
theorem weightT_at (W : FVec Ideal S128x128 .f32) (d j : Fin 128) :
    truncf (F := Ideal) .bf16 (transpose S128x128 [1, 0] W transposes_S128x128_S128x128_1_0) bitsLt_bf16_f32 (ix2 d j) = W (ix2 j d) := by
  rw [truncf_apply, transpose_ix2_apply]

/-! ## The region's input arrays -/

set_option maxHeartbeats 4000000 in
/-- Window 0's array, the gathered rows in the tile layout. -/
theorem tile_at (c : Dev nD) (k : Fin 512) (b : Fin 256) (d : Fin 128) :
    (V m c main_call0_v8 : S512x256x128.Idx → EReal) (ix3 k b d) = negRow (m ((c : Thread nD τ).loc main_arg3)) (m ((c : Thread nD τ).loc main_arg5)) k b d := by
  dsimp only [V, V0]
  simp only [hostOps0, List.flatten_cons, List.flatten_nil, List.append_nil]
  after_results_simp
  simp only [TRef.ofBuf_toBuf, toBuf_main_call0_v8, ofBuf_main_arg3, ofBuf_main_arg5]
  exact gathered_at _ _ k b d

set_option maxHeartbeats 4000000 in
/-- Window 1's array, the s branch's sample projection. -/
theorem proj_s_at (c : Dev nD) (b : Fin 256) (j : Fin 128) :
    (V m c main_call0_v18 : S256x128.Idx → EReal) (ix2 b j) = proj (feat (m ((c : Thread nD τ).loc main_arg0))) (mat (m ((c : Thread nD τ).loc main_arg6))) (row (m ((c : Thread nD τ).loc main_arg7))) b j := by
  dsimp only [V, V0]
  simp only [hostOps0, List.flatten_cons, List.flatten_nil, List.append_nil]
  after_results_simp
  simp only [TRef.ofBuf_toBuf, toBuf_main_call0_v18, ofBuf_main_arg0, ofBuf_main_arg6, ofBuf_main_arg7]
  exact projection_at _ _ _ b j

set_option maxHeartbeats 4000000 in
/-- Window 6's array, the t branch's sample projection. -/
theorem proj_t_at (c : Dev nD) (b : Fin 256) (j : Fin 128) :
    (V m c main_call0_v22 : S256x128.Idx → EReal) (ix2 b j) = proj (feat (m ((c : Thread nD τ).loc main_arg1))) (mat (m ((c : Thread nD τ).loc main_arg12))) (row (m ((c : Thread nD τ).loc main_arg13))) b j := by
  dsimp only [V, V0]
  simp only [hostOps0, List.flatten_cons, List.flatten_nil, List.append_nil]
  after_results_simp
  simp only [TRef.ofBuf_toBuf, toBuf_main_call0_v22, ofBuf_main_arg1, ofBuf_main_arg12, ofBuf_main_arg13]
  exact projection_at _ _ _ b j

set_option maxHeartbeats 4000000 in
/-- Window 2's array, the s branch's transposed hidden-layer weights. -/
theorem w2T_s_at (c : Dev nD) (d j : Fin 128) :
    (V m c main_call0_v24 : S128x128.Idx → EReal) (ix2 d j) = (m ((c : Thread nD τ).loc main_arg8)) (ix2 j d) := by
  dsimp only [V, V0]
  simp only [hostOps0, List.flatten_cons, List.flatten_nil, List.append_nil]
  after_results_simp
  simp only [TRef.ofBuf_toBuf, toBuf_main_call0_v24, ofBuf_main_arg8]
  exact weightT_at _ d j

set_option maxHeartbeats 4000000 in
/-- Window 4's array, the s branch's transposed score weights. -/
theorem wvT_s_at (c : Dev nD) (d j : Fin 128) :
    (V m c main_call0_v26 : S128x128.Idx → EReal) (ix2 d j) = (m ((c : Thread nD τ).loc main_arg10)) (ix2 j d) := by
  dsimp only [V, V0]
  simp only [hostOps0, List.flatten_cons, List.flatten_nil, List.append_nil]
  after_results_simp
  simp only [TRef.ofBuf_toBuf, toBuf_main_call0_v26, ofBuf_main_arg10]
  exact weightT_at _ d j

set_option maxHeartbeats 4000000 in
/-- Window 7's array, the t branch's transposed hidden-layer weights. -/
theorem w2T_t_at (c : Dev nD) (d j : Fin 128) :
    (V m c main_call0_v28 : S128x128.Idx → EReal) (ix2 d j) = (m ((c : Thread nD τ).loc main_arg14)) (ix2 j d) := by
  dsimp only [V, V0]
  simp only [hostOps0, List.flatten_cons, List.flatten_nil, List.append_nil]
  after_results_simp
  simp only [TRef.ofBuf_toBuf, toBuf_main_call0_v28, ofBuf_main_arg14]
  exact weightT_at _ d j

set_option maxHeartbeats 4000000 in
/-- Window 9's array, the t branch's transposed score weights. -/
theorem wvT_t_at (c : Dev nD) (d j : Fin 128) :
    (V m c main_call0_v30 : S128x128.Idx → EReal) (ix2 d j) = (m ((c : Thread nD τ).loc main_arg16)) (ix2 j d) := by
  dsimp only [V, V0]
  simp only [hostOps0, List.flatten_cons, List.flatten_nil, List.append_nil]
  after_results_simp
  simp only [TRef.ofBuf_toBuf, toBuf_main_call0_v30, ofBuf_main_arg16]
  exact weightT_at _ d j

end Cert.KernelEntry

end
-- ==== Proof.KernelScores.lean ====
/-
  The kernel body's two stores, read index by index.

  At a grid point the body holds a tile of 32 listed rows for all 256 samples, w[k, b, d], a sample projection a[b, j], and for
  each of its two layers a transposed weight copy WT[d, j] = W[j, d] and a bias row. Each layer flattens (k, b) to one row index
  q = 256 k + b, multiplies the [8192, 128] matrix by WT on the matrix unit into a zero accumulator, adds the bias row and
  restores the [32, 256, 128] layout; between the layers the hidden value max (a[b, j] - pre[k, b, j]) 0 is formed. Flattening and
  restoring are bijections of the index, a product into a zero accumulator is the finite sum over the contracted axis, and a
  change of float format is the identity on the extended reals: so the stored value at (k, b, e) is `Scores.score` of the tile.
-/
import proofs.«150685_j21801253995012_2_alg».proof.Proof.Gen.KernelIdeal.Skeleton
import proofs.«150685_j21801253995012_2_alg».proof.Proof.Scores
import proofs.«150685_j21801253995012_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelScores

open Cert.KernelIdeal Cert.KernelIdeal.Gen Idealize.ShloMosaic Idealize.ShloMosaic.ValueIdx Cert.Scores

/-- The flattened row index of listed row k, sample b: q = 256 k + b. -/
def flat (k : Fin 32) (b : Fin 256) : Fin 8192 := ⟨k.val * 256 + b.val, by have := k.isLt; have := b.isLt; omega⟩

/-! ## The matrix unit's product into a zero accumulator, at an entry -/

theorem dot_lhs0 (i : S8192x128.Idx) (q : dot_S8192x128_S128x128_S8192x128_1_0_0_1_n_n.contr.Idx) :
    (dot_S8192x128_S128x128_S8192x128_1_0_0_1_n_n.lhsIdx i q 0).val = (i 0).val := by
  unfold DotDims.lhsIdx
  rw [dif_neg (show ¬(0 : Fin S8192x128.rank) ∈ dot_S8192x128_S128x128_S8192x128_1_0_0_1_n_n.lhsBatch by decide),
    dif_pos (show (0 : Fin S8192x128.rank) ∈ dot_S8192x128_S128x128_S8192x128_1_0_0_1_n_n.lhsNonContracting by decide)]
  rfl

theorem dot_rhs1 (i : S8192x128.Idx) (q : dot_S8192x128_S128x128_S8192x128_1_0_0_1_n_n.contr.Idx) :
    (dot_S8192x128_S128x128_S8192x128_1_0_0_1_n_n.rhsIdx i q 1).val = (i 1).val := by
  unfold DotDims.rhsIdx
  rw [dif_neg (show ¬(1 : Fin S128x128.rank) ∈ dot_S8192x128_S128x128_S8192x128_1_0_0_1_n_n.rhsBatch by decide),
    dif_pos (show (1 : Fin S128x128.rank) ∈ dot_S8192x128_S128x128_S8192x128_1_0_0_1_n_n.rhsNonContracting by decide)]
  rfl

/-- Entry (q, e) of the product is the sum over the contracted axis. -/
theorem matmul_at {φ₁ φ₂ : FTy} (l : FVec Ideal S8192x128 φ₁) (r : FVec Ideal S128x128 φ₂) (q : Fin 8192) (e : Fin 128) :
    matmul dot_S8192x128_S128x128_S8192x128_1_0_0_1_n_n none l r (constant S8192x128 .f32 0x00000000#32) (ix2 q e)
      = ∑ j : Fin 128, l (ix2 q j) * r (ix2 j e) :=
  Cert.LibPlainDot.matmul_zero_apply dot_S8192x128_S128x128_S8192x128_1_0_0_1_n_n none 128 rfl rfl l r (ix2 q e)
    (fun j => ix2 q j) (fun j => ix2 j e)
    (fun qq => Cert.LibPlainDot.ext2 _ _ (dot_lhs0 _ _)
      (dot_S8192x128_S128x128_S8192x128_1_0_0_1_n_n.lhsIdx_val_of_single rfl (ix2 q e) qq))
    (fun qq => Cert.LibPlainDot.ext2 _ _
      (dot_S8192x128_S128x128_S8192x128_1_0_0_1_n_n.rhsIdx_val_of_single rfl (ix2 q e) qq) (dot_rhs1 _ _))

/-! ## One layer: flatten, multiply, add the bias row, restore the layout -/

/-- A layer of the body: the flattened [8192, 128] operand times the transposed weight copy, plus the bias row, in the
    [32, 256, 128] layout. -/
def layer {φ : FTy} (x : FVec Ideal S8192x128 φ) (WT : FVec Ideal S128x128 .bf16) (bias : FVec Ideal S128 .f32) :
    FVec Ideal S32x256x128 .f32 :=
  shapeCast S32x256x128
    (addf (matmul dot_S8192x128_S128x128_S8192x128_1_0_0_1_n_n none x WT (constant S8192x128 .f32 0x00000000#32))
      (broadcastTo S8192x128 (shapeCast S1x128 bias shapeCasts_S128_S1x128) broadcasts_S1x128_S8192x128))
    shapeCasts_S8192x128_S32x256x128

/-- The layer at (k, b, j): the sum over the feature axis of the operand's row 256 k + b against column j, plus the bias. -/
theorem layer_at {φ : FTy} (x : FVec Ideal S8192x128 φ) (WT : FVec Ideal S128x128 .bf16) (bias : FVec Ideal S128 .f32)
    (k : Fin 32) (b : Fin 256) (j : Fin 128) :
    layer x WT bias (ix3 k b j) = (∑ d : Fin 128, x (ix2 (flat k b) d) * WT (ix2 d j)) + bias (ix1 j) := by
  unfold layer
  rw [shapeCast_apply _ shapeCasts_S8192x128_S32x256x128 (ix3 k b j) (ix2 (flat k b) j) (by
    rw [Shape.rowMajor_val_two, Shape.rowMajor_val_three]; rfl)]
  rw [addf_apply, matmul_at, broadcastTo_1b_ab_apply, shapeCast_a_1a_apply]

/-- The flattened tile at (256 k + b, d) is the tile at (k, b, d). -/
theorem flatten_at {φ : FTy} (v : FVec Ideal S32x256x128 φ) (k : Fin 32) (b : Fin 256) (d : Fin 128) :
    shapeCast S8192x128 v shapeCasts_S32x256x128_S8192x128 (ix2 (flat k b) d) = v (ix3 k b d) :=
  shapeCast_apply v shapeCasts_S32x256x128_S8192x128 (ix2 (flat k b) d) (ix3 k b d) (by
    rw [Shape.rowMajor_val_two, Shape.rowMajor_val_three]; rfl)

/-! ## The hidden value between the layers -/

/-- The projection a[b, j] repeated along the 32 listed rows. -/
theorem spread_at (a : FVec Ideal S256x128 .f32) (k : Fin 32) (b : Fin 256) (j : Fin 128) :
    broadcastTo S32x256x128 (shapeCast S1x256x128 a shapeCasts_S256x128_S1x256x128) broadcasts_S1x256x128_S32x256x128 (ix3 k b j)
      = a (ix2 b j) := by
  rw [broadcastTo_apply _ broadcasts_S1x256x128_S32x256x128 (ix3 k b j) (ix3 (0 : Fin 1) b j) (fun ax => by
    match ax with
    | ⟨0, _⟩ => rfl
    | ⟨1, _⟩ => show b.val = if (256 : Nat) = 1 then 0 else b.val; rw [if_neg (by decide)]
    | ⟨2, _⟩ => show j.val = if (128 : Nat) = 1 then 0 else j.val; rw [if_neg (by decide)])]
  exact shapeCast_ab_1ab_apply a shapeCasts_S256x128_S1x256x128 (0 : Fin 1) b j

/-- The hidden value, flattened for the second layer. -/
def act (a : FVec Ideal S256x128 .f32) (pre : FVec Ideal S32x256x128 .f32) : FVec Ideal S8192x128 .bf16 :=
  shapeCast S8192x128
    (truncf .bf16
      (maximumf
        (subf (broadcastTo S32x256x128 (shapeCast S1x256x128 a shapeCasts_S256x128_S1x256x128) broadcasts_S1x256x128_S32x256x128) pre)
        (broadcast S32x256x128 (Scalar.ofBits (F := Ideal) .f32 0x00000000#32)))
      bitsLt_bf16_f32)
    shapeCasts_S32x256x128_S8192x128

theorem act_at (a : FVec Ideal S256x128 .f32) (pre : FVec Ideal S32x256x128 .f32) (k : Fin 32) (b : Fin 256) (j : Fin 128) :
    act a pre (ix2 (flat k b) j) = max (a (ix2 b j) - pre (ix3 k b j)) (Ideal.ofBits .f32 0x00000000#32) := by
  unfold act
  rw [flatten_at, truncf_apply, maximumf_apply, subf_apply, spread_at]
  rfl

/-! ## The two stores -/

/-- The two layers with the hidden value between them, at (k, b, e), is the score of the tile. -/
theorem layers_at {φ : FTy} (x : FVec Ideal S8192x128 φ) (a : FVec Ideal S256x128 .f32) (W2T : FVec Ideal S128x128 .bf16)
    (b2 : FVec Ideal S128 .f32) (WvT : FVec Ideal S128x128 .bf16) (bv : FVec Ideal S128 .f32) (k : Fin 32) (b : Fin 256) (e : Fin 128) :
    layer (act a (layer x W2T b2)) WvT bv (ix3 k b e)
      = score (fun k b d => x (ix2 (flat k b) d)) (fun b j => a (ix2 b j)) (fun j d => W2T (ix2 d j)) (fun j => b2 (ix1 j))
          (fun e j => WvT (ix2 j e)) (fun e => bv (ix1 e)) k b e := by
  rw [layer_at]
  unfold score Scores.hidden
  simp only [act_at, layer_at]

/-- The store into the first output's buffer (the s branch). -/
theorem store_s_at (v0 : Vec Ideal S32x256x128 .bf16) (v3 : Vec Ideal S256x128 .f32) (v5 : Vec Ideal S128x128 .bf16) (v7 : Vec Ideal S128 .f32)
    (v8 : Vec Ideal S128x128 .bf16) (v10 : Vec Ideal S128 .f32) (k : Fin 32) (b : Fin 256) (e : Fin 128) :
    k0_pay3 (F := Ideal) v0 v3 v5 v7 v8 v10 (ix3 k b e)
      = score (fun k b d => v0 (ix3 k b d)) (fun b j => v3 (ix2 b j)) (fun j d => v5 (ix2 d j)) (fun j => v7 (ix1 j))
          (fun e j => v8 (ix2 j e)) (fun e => v10 (ix1 e)) k b e := by
  have h : k0_pay3 (F := Ideal) v0 v3 v5 v7 v8 v10
      = layer (act (shapeCast S256x128 v3 shapeCasts_S256x128_S256x128)
          (layer (shapeCast S8192x128 (shapeCast S32x256x128 v0 shapeCasts_S32x256x128_S32x256x128) shapeCasts_S32x256x128_S8192x128)
            (shapeCast S128x128 v5 shapeCasts_S128x128_S128x128) v7))
          (shapeCast S128x128 v8 shapeCasts_S128x128_S128x128) v10 := rfl
  rw [h, shapeCast_self, shapeCast_self, shapeCast_self, shapeCast_self, layers_at]
  simp only [flatten_at]

/-- The store into the second output's buffer (the t branch). -/
theorem store_t_at (v0 : Vec Ideal S32x256x128 .bf16) (v29 : Vec Ideal S256x128 .f32) (v31 : Vec Ideal S128x128 .bf16) (v33 : Vec Ideal S128 .f32)
    (v34 : Vec Ideal S128x128 .bf16) (v36 : Vec Ideal S128 .f32) (k : Fin 32) (b : Fin 256) (e : Fin 128) :
    k0_pay1 (F := Ideal) (k0_pay2 v0) (k0_pay4 v29) (k0_pay5 v31) v33 v34 v36 (ix3 k b e)
      = score (fun k b d => v0 (ix3 k b d)) (fun b j => v29 (ix2 b j)) (fun j d => v31 (ix2 d j)) (fun j => v33 (ix1 j))
          (fun e j => v34 (ix2 j e)) (fun e => v36 (ix1 e)) k b e := by
  have h : k0_pay1 (F := Ideal) (k0_pay2 v0) (k0_pay4 v29) (k0_pay5 v31) v33 v34 v36
      = layer (act (shapeCast S256x128 v29 shapeCasts_S256x128_S256x128)
          (layer (shapeCast S8192x128 (shapeCast S32x256x128 v0 shapeCasts_S32x256x128_S32x256x128) shapeCasts_S32x256x128_S8192x128)
            (shapeCast S128x128 v31 shapeCasts_S128x128_S128x128) v33))
          (shapeCast S128x128 v34 shapeCasts_S128x128_S128x128) v36 := rfl
  rw [h, shapeCast_self, shapeCast_self, shapeCast_self, shapeCast_self, layers_at]
  simp only [flatten_at]

end Cert.KernelScores

end
-- ==== Proof.KernelArrays.lean ====
/-
  From the tiles to the two score arrays.

  The grid has 16 points; point t stages rows 32 t … 32 t + 31 of the gathered array and of each output, and the whole of every
  other operand. So what point t writes back is block t of ONE function of the argument arrays — the body's stored value at (k, b, e)
  is the score at listed row 32 t + k —, the 16 blocks fill the [512, 256, 128] output, and the output ends holding that function.
-/
import proofs.«150685_j21801253995012_2_alg».proof.Proof.KernelIdealFrame
import proofs.«150685_j21801253995012_2_alg».proof.Proof.KernelEntry
import proofs.«150685_j21801253995012_2_alg».proof.Proof.KernelScores
import proofs.«150685_j21801253995012_2_alg».proof.Proof.Scores
import Idealize.ShloMosaic.Lib.Pipeline.Value
import Idealize.ShloMosaic.Lib.ValueIdx

set_option maxRecDepth 16384

noncomputable section

namespace Cert.KernelArrays

open Cert.KernelIdeal Cert.KernelIdeal.Gen Cert.KernelIdeal.GenP Idealize.ShloMosaic Idealize.ShloMosaic.TcCoe Idealize.SL.Sem
open Idealize.ShloMosaic.Pipeline (Dat)
open Idealize.ShloMosaic.ValueIdx Cert.Scores

variable (m : (ℓ : Loc nD τ sig) → Buf (Elt Ideal) ℓ)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the 16 grid points: the gathered array and the two outputs move with the point along
    the listed-rows axis; every other operand stays at block 0. -/
theorem idx_facts : ∀ t : Fin cfg0.N, win0_0.index t (0 : Fin 3) = t.val
    ∧ win0_0.index t (1 : Fin 3) = 0
    ∧ win0_0.index t (2 : Fin 3) = 0
    ∧ win0_11.index t (0 : Fin 3) = t.val
    ∧ win0_11.index t (1 : Fin 3) = 0
    ∧ win0_11.index t (2 : Fin 3) = 0
    ∧ win0_12.index t (0 : Fin 3) = t.val
    ∧ win0_12.index t (1 : Fin 3) = 0
    ∧ win0_12.index t (2 : Fin 3) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 1) = 0
    ∧ win0_4.index t (0 : Fin 2) = 0
    ∧ win0_4.index t (1 : Fin 2) = 0
    ∧ win0_5.index t (0 : Fin 1) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 1) = 0
    ∧ win0_9.index t (0 : Fin 2) = 0
    ∧ win0_9.index t (1 : Fin 2) = 0
    ∧ win0_10.index t (0 : Fin 1) = 0 :=
  (by decide +kernel : ∀ t : Fin grid0.N, _)

/-- Listed row 32 t + k of the whole array: row k of point t's tile. -/
def row512 (t : Fin cfg0.N) (k : Fin 32) : Fin 512 :=
  ⟨t.val * 32 + k.val, by have ht : t.val < 16 := lt_of_lt_of_eq t.isLt N_0; have := k.isLt; omega⟩

/-! ## The input windows' blocks, read at an index -/

/-- Window 0's block at point t is the tile of listed rows 32 t … 32 t + 31. -/
theorem blk0_at (c : Dev nD) (t : Fin cfg0.N) (k : Fin 32) (b : Fin 256) (d : Fin 128) :
    iblk (F := Ideal) m c 0 t (ix3 k b d) = (V m c main_call0_v8 : S512x256x128.Idx → EReal) (ix3 (row512 t k) b d) := by
  obtain ⟨e0_0, e0_1, e0_2, e11_0, e11_1, e11_2, e12_0, e12_1, e12_2, e1_0, e1_1, e2_0, e2_1, e3_0, e4_0, e4_1, e5_0, e6_0, e6_1, e7_0, e7_1, e8_0, e9_0, e9_1, e10_0⟩ := idx_facts t
  show (V m c main_call0_v8 : S512x256x128.Idx → EReal) (((cfg0.win 0).blk t).view.emb (ix3 k b d)) = _
  refine congrArg _ (funext fun a => Fin.ext ?_)
  match a with
  | ⟨0, _⟩ => show win0_0.index t (0 : Fin 3) * 32 + 1 * k.val = t.val * 32 + k.val; rw [e0_0]; omega
  | ⟨1, _⟩ => show win0_0.index t (1 : Fin 3) * 256 + 1 * b.val = b.val; rw [e0_1]; omega
  | ⟨2, _⟩ => show win0_0.index t (2 : Fin 3) * 128 + 1 * d.val = d.val; rw [e0_2]; omega

/-- Window 1's block is its whole array at every point. -/
theorem blk1_at (c : Dev nD) (t : Fin cfg0.N) (p : Fin 256) (q : Fin 128) :
    iblk (F := Ideal) m c 1 t (ix2 p q) = (V m c main_call0_v18 : S256x128.Idx → EReal) (ix2 p q) := by
  obtain ⟨e0_0, e0_1, e0_2, e11_0, e11_1, e11_2, e12_0, e12_1, e12_2, e1_0, e1_1, e2_0, e2_1, e3_0, e4_0, e4_1, e5_0, e6_0, e6_1, e7_0, e7_1, e8_0, e9_0, e9_1, e10_0⟩ := idx_facts t
  show (V m c main_call0_v18 : S256x128.Idx → EReal) (((cfg0.win 1).blk t).view.emb (ix2 p q)) = _
  refine congrArg _ (funext fun a => Fin.ext ?_)
  match a with
  | ⟨0, _⟩ => show win0_1.index t (0 : Fin 2) * 256 + 1 * p.val = p.val; rw [e1_0]; omega
  | ⟨1, _⟩ => show win0_1.index t (1 : Fin 2) * 128 + 1 * q.val = q.val; rw [e1_1]; omega

/-- Window 2's block is its whole array at every point. -/
theorem blk2_at (c : Dev nD) (t : Fin cfg0.N) (p : Fin 128) (q : Fin 128) :
    iblk (F := Ideal) m c 2 t (ix2 p q) = (V m c main_call0_v24 : S128x128.Idx → EReal) (ix2 p q) := by
  obtain ⟨e0_0, e0_1, e0_2, e11_0, e11_1, e11_2, e12_0, e12_1, e12_2, e1_0, e1_1, e2_0, e2_1, e3_0, e4_0, e4_1, e5_0, e6_0, e6_1, e7_0, e7_1, e8_0, e9_0, e9_1, e10_0⟩ := idx_facts t
  show (V m c main_call0_v24 : S128x128.Idx → EReal) (((cfg0.win 2).blk t).view.emb (ix2 p q)) = _
  refine congrArg _ (funext fun a => Fin.ext ?_)
  match a with
  | ⟨0, _⟩ => show win0_2.index t (0 : Fin 2) * 128 + 1 * p.val = p.val; rw [e2_0]; omega
  | ⟨1, _⟩ => show win0_2.index t (1 : Fin 2) * 128 + 1 * q.val = q.val; rw [e2_1]; omega

/-- Window 3's block is its whole array at every point. -/
theorem blk3_at (c : Dev nD) (t : Fin cfg0.N) (p : Fin 128) :
    iblk (F := Ideal) m c 3 t (ix1 p) = (V m c main_arg9 : S128.Idx → EReal) (ix1 p) := by
  obtain ⟨e0_0, e0_1, e0_2, e11_0, e11_1, e11_2, e12_0, e12_1, e12_2, e1_0, e1_1, e2_0, e2_1, e3_0, e4_0, e4_1, e5_0, e6_0, e6_1, e7_0, e7_1, e8_0, e9_0, e9_1, e10_0⟩ := idx_facts t
  show (V m c main_arg9 : S128.Idx → EReal) (((cfg0.win 3).blk t).view.emb (ix1 p)) = _
  refine congrArg _ (funext fun a => Fin.ext ?_)
  match a with
  | ⟨0, _⟩ => show win0_3.index t (0 : Fin 1) * 128 + 1 * p.val = p.val; rw [e3_0]; omega

/-- Window 4's block is its whole array at every point. -/
theorem blk4_at (c : Dev nD) (t : Fin cfg0.N) (p : Fin 128) (q : Fin 128) :
    iblk (F := Ideal) m c 4 t (ix2 p q) = (V m c main_call0_v26 : S128x128.Idx → EReal) (ix2 p q) := by
  obtain ⟨e0_0, e0_1, e0_2, e11_0, e11_1, e11_2, e12_0, e12_1, e12_2, e1_0, e1_1, e2_0, e2_1, e3_0, e4_0, e4_1, e5_0, e6_0, e6_1, e7_0, e7_1, e8_0, e9_0, e9_1, e10_0⟩ := idx_facts t
  show (V m c main_call0_v26 : S128x128.Idx → EReal) (((cfg0.win 4).blk t).view.emb (ix2 p q)) = _
  refine congrArg _ (funext fun a => Fin.ext ?_)
  match a with
  | ⟨0, _⟩ => show win0_4.index t (0 : Fin 2) * 128 + 1 * p.val = p.val; rw [e4_0]; omega
  | ⟨1, _⟩ => show win0_4.index t (1 : Fin 2) * 128 + 1 * q.val = q.val; rw [e4_1]; omega

/-- Window 5's block is its whole array at every point. -/
theorem blk5_at (c : Dev nD) (t : Fin cfg0.N) (p : Fin 128) :
    iblk (F := Ideal) m c 5 t (ix1 p) = (V m c main_arg11 : S128.Idx → EReal) (ix1 p) := by
  obtain ⟨e0_0, e0_1, e0_2, e11_0, e11_1, e11_2, e12_0, e12_1, e12_2, e1_0, e1_1, e2_0, e2_1, e3_0, e4_0, e4_1, e5_0, e6_0, e6_1, e7_0, e7_1, e8_0, e9_0, e9_1, e10_0⟩ := idx_facts t
  show (V m c main_arg11 : S128.Idx → EReal) (((cfg0.win 5).blk t).view.emb (ix1 p)) = _
  refine congrArg _ (funext fun a => Fin.ext ?_)
  match a with
  | ⟨0, _⟩ => show win0_5.index t (0 : Fin 1) * 128 + 1 * p.val = p.val; rw [e5_0]; omega

/-- Window 6's block is its whole array at every point. -/
theorem blk6_at (c : Dev nD) (t : Fin cfg0.N) (p : Fin 256) (q : Fin 128) :
    iblk (F := Ideal) m c 6 t (ix2 p q) = (V m c main_call0_v22 : S256x128.Idx → EReal) (ix2 p q) := by
  obtain ⟨e0_0, e0_1, e0_2, e11_0, e11_1, e11_2, e12_0, e12_1, e12_2, e1_0, e1_1, e2_0, e2_1, e3_0, e4_0, e4_1, e5_0, e6_0, e6_1, e7_0, e7_1, e8_0, e9_0, e9_1, e10_0⟩ := idx_facts t
  show (V m c main_call0_v22 : S256x128.Idx → EReal) (((cfg0.win 6).blk t).view.emb (ix2 p q)) = _
  refine congrArg _ (funext fun a => Fin.ext ?_)
  match a with
  | ⟨0, _⟩ => show win0_6.index t (0 : Fin 2) * 256 + 1 * p.val = p.val; rw [e6_0]; omega
  | ⟨1, _⟩ => show win0_6.index t (1 : Fin 2) * 128 + 1 * q.val = q.val; rw [e6_1]; omega

/-- Window 7's block is its whole array at every point. -/
theorem blk7_at (c : Dev nD) (t : Fin cfg0.N) (p : Fin 128) (q : Fin 128) :
    iblk (F := Ideal) m c 7 t (ix2 p q) = (V m c main_call0_v28 : S128x128.Idx → EReal) (ix2 p q) := by
  obtain ⟨e0_0, e0_1, e0_2, e11_0, e11_1, e11_2, e12_0, e12_1, e12_2, e1_0, e1_1, e2_0, e2_1, e3_0, e4_0, e4_1, e5_0, e6_0, e6_1, e7_0, e7_1, e8_0, e9_0, e9_1, e10_0⟩ := idx_facts t
  show (V m c main_call0_v28 : S128x128.Idx → EReal) (((cfg0.win 7).blk t).view.emb (ix2 p q)) = _
  refine congrArg _ (funext fun a => Fin.ext ?_)
  match a with
  | ⟨0, _⟩ => show win0_7.index t (0 : Fin 2) * 128 + 1 * p.val = p.val; rw [e7_0]; omega
  | ⟨1, _⟩ => show win0_7.index t (1 : Fin 2) * 128 + 1 * q.val = q.val; rw [e7_1]; omega

/-- Window 8's block is its whole array at every point. -/
theorem blk8_at (c : Dev nD) (t : Fin cfg0.N) (p : Fin 128) :
    iblk (F := Ideal) m c 8 t (ix1 p) = (V m c main_arg15 : S128.Idx → EReal) (ix1 p) := by
  obtain ⟨e0_0, e0_1, e0_2, e11_0, e11_1, e11_2, e12_0, e12_1, e12_2, e1_0, e1_1, e2_0, e2_1, e3_0, e4_0, e4_1, e5_0, e6_0, e6_1, e7_0, e7_1, e8_0, e9_0, e9_1, e10_0⟩ := idx_facts t
  show (V m c main_arg15 : S128.Idx → EReal) (((cfg0.win 8).blk t).view.emb (ix1 p)) = _
  refine congrArg _ (funext fun a => Fin.ext ?_)
  match a with
  | ⟨0, _⟩ => show win0_8.index t (0 : Fin 1) * 128 + 1 * p.val = p.val; rw [e8_0]; omega

/-- Window 9's block is its whole array at every point. -/
theorem blk9_at (c : Dev nD) (t : Fin cfg0.N) (p : Fin 128) (q : Fin 128) :
    iblk (F := Ideal) m c 9 t (ix2 p q) = (V m c main_call0_v30 : S128x128.Idx → EReal) (ix2 p q) := by
  obtain ⟨e0_0, e0_1, e0_2, e11_0, e11_1, e11_2, e12_0, e12_1, e12_2, e1_0, e1_1, e2_0, e2_1, e3_0, e4_0, e4_1, e5_0, e6_0, e6_1, e7_0, e7_1, e8_0, e9_0, e9_1, e10_0⟩ := idx_facts t
  show (V m c main_call0_v30 : S128x128.Idx → EReal) (((cfg0.win 9).blk t).view.emb (ix2 p q)) = _
  refine congrArg _ (funext fun a => Fin.ext ?_)
  match a with
  | ⟨0, _⟩ => show win0_9.index t (0 : Fin 2) * 128 + 1 * p.val = p.val; rw [e9_0]; omega
  | ⟨1, _⟩ => show win0_9.index t (1 : Fin 2) * 128 + 1 * q.val = q.val; rw [e9_1]; omega

/-- Window 10's block is its whole array at every point. -/
theorem blk10_at (c : Dev nD) (t : Fin cfg0.N) (p : Fin 128) :
    iblk (F := Ideal) m c 10 t (ix1 p) = (V m c main_arg17 : S128.Idx → EReal) (ix1 p) := by
  obtain ⟨e0_0, e0_1, e0_2, e11_0, e11_1, e11_2, e12_0, e12_1, e12_2, e1_0, e1_1, e2_0, e2_1, e3_0, e4_0, e4_1, e5_0, e6_0, e6_1, e7_0, e7_1, e8_0, e9_0, e9_1, e10_0⟩ := idx_facts t
  show (V m c main_arg17 : S128.Idx → EReal) (((cfg0.win 10).blk t).view.emb (ix1 p)) = _
  refine congrArg _ (funext fun a => Fin.ext ?_)
  match a with
  | ⟨0, _⟩ => show win0_10.index t (0 : Fin 1) * 128 + 1 * p.val = p.val; rw [e10_0]; omega

/-! ## Output window 11 (the s branch) -/

/-- An index of the array is in point t's block iff each coordinate is in the block's range on its axis. -/
theorem mem_blk11 (t : Fin cfg0.N) (i : S512x256x128.Idx) :
    i ∈ ((cfg0.win 11).blk t).view.set ↔ ∀ a : Fin 3, win0_11.index t a * S32x256x128.size a ≤ (i a).val
      ∧ (i a).val < win0_11.index t a * S32x256x128.size a + S32x256x128.size a := by
  show i ∈ ((View.whole main_v0_1).slice (win0_11.rect t)).set ↔ _
  rw [View.set_slice_whole, Rect.mem_set_unit]
  exact Iff.rfl

/-- The 16 tiles of 32 listed rows fill the array: index i lies in the block of point (i 0) / 32. -/
theorem cover11 (i : S512x256x128.Idx) :
    ∃ t : Fin cfg0.N, (cfg0.win 11).flush t = true ∧ i ∈ ((cfg0.win 11).blk t).view.set := by
  have hi0 : (i 0).val < 512 := (i 0).isLt
  have hi1 : (i 1).val < 256 := (i 1).isLt
  have hi2 : (i 2).val < 128 := (i 2).isLt
  have hN : (i 0).val / 32 < cfg0.N := by show _ < grid0.N; rw [N_0]; omega
  refine ⟨⟨(i 0).val / 32, hN⟩, flush0_11 _, ?_⟩
  obtain ⟨e0_0, e0_1, e0_2, e11_0, e11_1, e11_2, e12_0, e12_1, e12_2, e1_0, e1_1, e2_0, e2_1, e3_0, e4_0, e4_1, e5_0, e6_0, e6_1, e7_0, e7_1, e8_0, e9_0, e9_1, e10_0⟩ := idx_facts ⟨(i 0).val / 32, hN⟩
  rw [mem_blk11]
  intro a
  match a with
  | ⟨0, _⟩ =>
    show win0_11.index ⟨(i 0).val / 32, hN⟩ (0 : Fin 3) * 32 ≤ (i 0).val
      ∧ (i 0).val < win0_11.index ⟨(i 0).val / 32, hN⟩ (0 : Fin 3) * 32 + 32
    rw [e11_0]; show (i 0).val / 32 * 32 ≤ (i 0).val ∧ (i 0).val < (i 0).val / 32 * 32 + 32; omega
  | ⟨1, _⟩ =>
    show win0_11.index ⟨(i 0).val / 32, hN⟩ (1 : Fin 3) * 256 ≤ (i 1).val
      ∧ (i 1).val < win0_11.index ⟨(i 0).val / 32, hN⟩ (1 : Fin 3) * 256 + 256
    rw [e11_1]; omega
  | ⟨2, _⟩ =>
    show win0_11.index ⟨(i 0).val / 32, hN⟩ (2 : Fin 3) * 128 ≤ (i 2).val
      ∧ (i 2).val < win0_11.index ⟨(i 0).val / 32, hN⟩ (2 : Fin 3) * 128 + 128
    rw [e11_2]; omega

/-- WHAT POINT t WRITES BACK is block t of the scores of the argument arrays. -/
theorem flushed11_eq (c : Dev nD) (t : Fin cfg0.N) :
    (dats (F := Ideal) m 0 c).flushed 11 t
      = ((cfg0.win 11).blk t).view.read (Elt Ideal) (scores (m ((c : Thread nD τ).loc main_arg0)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg3)) (m ((c : Thread nD τ).loc main_arg5))) := by
  show (cfg0.win 11).cut (grid0.coords t) ((dats (F := Ideal) m 0 c).after 11 t) = _
  rw [after0_11]
  unfold out0_11
  rw [View.canon_unit_zero hz3]
  simp only [View.ld_unit_zero (S := S32x256x128) hz3, View.ld_unit_zero (S := S256x128) hz2,
    View.ld_unit_zero (S := S128x128) hz2, View.ld_unit_zero (S := S128) hz1]
  funext y
  obtain ⟨k, b, e, rfl⟩ : ∃ (k : Fin 32) (b : Fin 256) (e : Fin 128), y = ix3 k b e := ⟨y 0, y 1, y 2, eq_ix3 y⟩
  obtain ⟨e0_0, e0_1, e0_2, e11_0, e11_1, e11_2, e12_0, e12_1, e12_2, e1_0, e1_1, e2_0, e2_1, e3_0, e4_0, e4_1, e5_0, e6_0, e6_1, e7_0, e7_1, e8_0, e9_0, e9_1, e10_0⟩ := idx_facts t
  have hemb : ((cfg0.win 11).blk t).view.emb (ix3 k b e) = ix3 (row512 t k) b e := funext fun a => Fin.ext (by
    match a with
    | ⟨0, _⟩ => show win0_11.index t (0 : Fin 3) * 32 + 1 * k.val = t.val * 32 + k.val; rw [e11_0]; omega
    | ⟨1, _⟩ => show win0_11.index t (1 : Fin 3) * 256 + 1 * b.val = b.val; rw [e11_1]; omega
    | ⟨2, _⟩ => show win0_11.index t (2 : Fin 3) * 128 + 1 * e.val = e.val; rw [e11_2]; omega)
  show k0_pay3 (F := Ideal) (iblk (F := Ideal) m c 0 t) (iblk (F := Ideal) m c 1 t) (iblk (F := Ideal) m c 2 t) (iblk (F := Ideal) m c 3 t) (iblk (F := Ideal) m c 4 t) (iblk (F := Ideal) m c 5 t) (ix3 k b e) = scores (m ((c : Thread nD τ).loc main_arg0)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg3)) (m ((c : Thread nD τ).loc main_arg5)) (((cfg0.win 11).blk t).view.emb (ix3 k b e))
  rw [hemb, scores_ix3]
  refine (Cert.KernelScores.store_s_at (iblk (F := Ideal) m c 0 t) (iblk (F := Ideal) m c 1 t) (iblk (F := Ideal) m c 2 t) (iblk (F := Ideal) m c 3 t) (iblk (F := Ideal) m c 4 t) (iblk (F := Ideal) m c 5 t) k b e).trans ?_
  exact score_congr _ _ _ _ _ _ _ _ _ _ _ _ k (row512 t k) b e
    (fun d => (blk0_at m c t k b d).trans (Cert.KernelEntry.tile_at m c (row512 t k) b d))
    (fun j => (blk1_at m c t b j).trans (Cert.KernelEntry.proj_s_at m c b j))
    (fun j d => (blk2_at m c t d j).trans (Cert.KernelEntry.w2T_s_at m c d j))
    (fun j => (blk3_at m c t j).trans (congrFun (V_main_arg9 m c) (ix1 j)))
    (fun j => (blk4_at m c t j e).trans (Cert.KernelEntry.wvT_s_at m c j e))
    ((blk5_at m c t e).trans (congrFun (V_main_arg11 m c) (ix1 e)))

/-- THE ARRAY after the run: the scores of the argument arrays. -/
theorem final11 (c : Dev nD) : (dats (F := Ideal) m 0 c).arrAt 11 cfg0.N = scores (m ((c : Thread nD τ).loc main_arg0)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg3)) (m ((c : Thread nD τ).loc main_arg5)) :=
  (dats (F := Ideal) m 0 c).arrAt_eq_of_cover 11 _ (fun t _ => flushed11_eq m c t) cover11

/-! ## Output window 12 (the t branch) -/

/-- An index of the array is in point t's block iff each coordinate is in the block's range on its axis. -/
theorem mem_blk12 (t : Fin cfg0.N) (i : S512x256x128.Idx) :
    i ∈ ((cfg0.win 12).blk t).view.set ↔ ∀ a : Fin 3, win0_12.index t a * S32x256x128.size a ≤ (i a).val
      ∧ (i a).val < win0_12.index t a * S32x256x128.size a + S32x256x128.size a := by
  show i ∈ ((View.whole main_v0_0).slice (win0_12.rect t)).set ↔ _
  rw [View.set_slice_whole, Rect.mem_set_unit]
  exact Iff.rfl

/-- The 16 tiles of 32 listed rows fill the array: index i lies in the block of point (i 0) / 32. -/
theorem cover12 (i : S512x256x128.Idx) :
    ∃ t : Fin cfg0.N, (cfg0.win 12).flush t = true ∧ i ∈ ((cfg0.win 12).blk t).view.set := by
  have hi0 : (i 0).val < 512 := (i 0).isLt
  have hi1 : (i 1).val < 256 := (i 1).isLt
  have hi2 : (i 2).val < 128 := (i 2).isLt
  have hN : (i 0).val / 32 < cfg0.N := by show _ < grid0.N; rw [N_0]; omega
  refine ⟨⟨(i 0).val / 32, hN⟩, flush0_12 _, ?_⟩
  obtain ⟨e0_0, e0_1, e0_2, e11_0, e11_1, e11_2, e12_0, e12_1, e12_2, e1_0, e1_1, e2_0, e2_1, e3_0, e4_0, e4_1, e5_0, e6_0, e6_1, e7_0, e7_1, e8_0, e9_0, e9_1, e10_0⟩ := idx_facts ⟨(i 0).val / 32, hN⟩
  rw [mem_blk12]
  intro a
  match a with
  | ⟨0, _⟩ =>
    show win0_12.index ⟨(i 0).val / 32, hN⟩ (0 : Fin 3) * 32 ≤ (i 0).val
      ∧ (i 0).val < win0_12.index ⟨(i 0).val / 32, hN⟩ (0 : Fin 3) * 32 + 32
    rw [e12_0]; show (i 0).val / 32 * 32 ≤ (i 0).val ∧ (i 0).val < (i 0).val / 32 * 32 + 32; omega
  | ⟨1, _⟩ =>
    show win0_12.index ⟨(i 0).val / 32, hN⟩ (1 : Fin 3) * 256 ≤ (i 1).val
      ∧ (i 1).val < win0_12.index ⟨(i 0).val / 32, hN⟩ (1 : Fin 3) * 256 + 256
    rw [e12_1]; omega
  | ⟨2, _⟩ =>
    show win0_12.index ⟨(i 0).val / 32, hN⟩ (2 : Fin 3) * 128 ≤ (i 2).val
      ∧ (i 2).val < win0_12.index ⟨(i 0).val / 32, hN⟩ (2 : Fin 3) * 128 + 128
    rw [e12_2]; omega

/-- WHAT POINT t WRITES BACK is block t of the scores of the argument arrays. -/
theorem flushed12_eq (c : Dev nD) (t : Fin cfg0.N) :
    (dats (F := Ideal) m 0 c).flushed 12 t
      = ((cfg0.win 12).blk t).view.read (Elt Ideal) (scores (m ((c : Thread nD τ).loc main_arg1)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg3)) (m ((c : Thread nD τ).loc main_arg5))) := by
  show (cfg0.win 12).cut (grid0.coords t) ((dats (F := Ideal) m 0 c).after 12 t) = _
  rw [after0_12]
  unfold out0_12
  rw [View.canon_unit_zero hz3]
  simp only [View.ld_unit_zero (S := S32x256x128) hz3, View.ld_unit_zero (S := S256x128) hz2,
    View.ld_unit_zero (S := S128x128) hz2, View.ld_unit_zero (S := S128) hz1]
  funext y
  obtain ⟨k, b, e, rfl⟩ : ∃ (k : Fin 32) (b : Fin 256) (e : Fin 128), y = ix3 k b e := ⟨y 0, y 1, y 2, eq_ix3 y⟩
  obtain ⟨e0_0, e0_1, e0_2, e11_0, e11_1, e11_2, e12_0, e12_1, e12_2, e1_0, e1_1, e2_0, e2_1, e3_0, e4_0, e4_1, e5_0, e6_0, e6_1, e7_0, e7_1, e8_0, e9_0, e9_1, e10_0⟩ := idx_facts t
  have hemb : ((cfg0.win 12).blk t).view.emb (ix3 k b e) = ix3 (row512 t k) b e := funext fun a => Fin.ext (by
    match a with
    | ⟨0, _⟩ => show win0_12.index t (0 : Fin 3) * 32 + 1 * k.val = t.val * 32 + k.val; rw [e12_0]; omega
    | ⟨1, _⟩ => show win0_12.index t (1 : Fin 3) * 256 + 1 * b.val = b.val; rw [e12_1]; omega
    | ⟨2, _⟩ => show win0_12.index t (2 : Fin 3) * 128 + 1 * e.val = e.val; rw [e12_2]; omega)
  show k0_pay1 (F := Ideal) (k0_pay2 (iblk (F := Ideal) m c 0 t)) (k0_pay4 (iblk (F := Ideal) m c 6 t)) (k0_pay5 (iblk (F := Ideal) m c 7 t)) (iblk (F := Ideal) m c 8 t) (iblk (F := Ideal) m c 9 t) (iblk (F := Ideal) m c 10 t) (ix3 k b e) = scores (m ((c : Thread nD τ).loc main_arg1)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg3)) (m ((c : Thread nD τ).loc main_arg5)) (((cfg0.win 12).blk t).view.emb (ix3 k b e))
  rw [hemb, scores_ix3]
  refine (Cert.KernelScores.store_t_at (iblk (F := Ideal) m c 0 t) (iblk (F := Ideal) m c 6 t) (iblk (F := Ideal) m c 7 t) (iblk (F := Ideal) m c 8 t) (iblk (F := Ideal) m c 9 t) (iblk (F := Ideal) m c 10 t) k b e).trans ?_
  exact score_congr _ _ _ _ _ _ _ _ _ _ _ _ k (row512 t k) b e
    (fun d => (blk0_at m c t k b d).trans (Cert.KernelEntry.tile_at m c (row512 t k) b d))
    (fun j => (blk6_at m c t b j).trans (Cert.KernelEntry.proj_t_at m c b j))
    (fun j d => (blk7_at m c t d j).trans (Cert.KernelEntry.w2T_t_at m c d j))
    (fun j => (blk8_at m c t j).trans (congrFun (V_main_arg15 m c) (ix1 j)))
    (fun j => (blk9_at m c t j e).trans (Cert.KernelEntry.wvT_t_at m c j e))
    ((blk10_at m c t e).trans (congrFun (V_main_arg17 m c) (ix1 e)))

/-- THE ARRAY after the run: the scores of the argument arrays. -/
theorem final12 (c : Dev nD) : (dats (F := Ideal) m 0 c).arrAt 12 cfg0.N = scores (m ((c : Thread nD τ).loc main_arg1)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg3)) (m ((c : Thread nD τ).loc main_arg5)) :=
  (dats (F := Ideal) m 0 c).arrAt_eq_of_cover 12 _ (fun t _ => flushed12_eq m c t) cover12

end Cert.KernelArrays

end
-- ==== Proof.MemUpdate.lean ====
/-
  The momentum update of a memory bank, as one function of the bank, the sample labels y and the sample features v.

  For each sample b the row of the bank its (wrapped, clamped) label names is mixed half and half with the sample's features,
  the mixed row is divided by its Euclidean norm, and the result is written back over that row of the bank (where two samples name
  the same row, the scatter's own rule decides which is kept). Both programs compute this by the same line of host operations, so
  the function is stated once, in that spelling, and never opened.
-/
import proofs.«150685_j21801253995012_2_alg».proof.Proof.Gen.KernelIdeal
import Idealize.ShloMosaic.PureOps.Ideal

noncomputable section

namespace Cert.MemUpdate

open Cert.KernelIdeal Cert.KernelIdeal.Gen Idealize.ShloMosaic

/-- The labels as the column of start words the gather and the scatter read: a negative label counts from the end of the bank. -/
def wrapped (y : IVec S256 32) : IVec S256x1 32 :=
  broadcastInDim S256x1 ![0] bcast_S256_S256x1_0
    (select (cmpi .slt y (broadcastInDim S256 ![] bcast_S_S256 (constantI S_ 32 0#32)))
      (addi y (broadcastInDim S256 ![] bcast_S_S256 (constantI S_ 32 1000000#32))) y)

/-- The named rows mixed half and half with the samples' features. -/
def mixed (mem : FVec Ideal S1000000x128 .f32) (y : IVec S256 32) (v : FVec Ideal S256x128 .f32) : FVec Ideal S256x128 .f32 :=
  addf
    (mulf (Host.gather gather_S1000000x128_S256x1_S256x128_1_0_n_n_0_1_1128 mem (wrapped y))
      (broadcastInDim S256x128 ![] bcast_S_S256x128 (constant (F := Ideal) S_ .f32 0x3F000000#32)))
    (mulf v (broadcastInDim S256x128 ![] bcast_S_S256x128 (constant (F := Ideal) S_ .f32 0x3F000000#32)))

/-- The updated bank: the mixed rows, each divided by its norm, scattered back over the rows the labels name. -/
def memUpdate (mem : FVec Ideal S1000000x128 .f32) (y : IVec S256 32) (v : FVec Ideal S256x128 .f32) : FVec Ideal S1000000x128 .f32 :=
  Host.scatter scatter_S1000000x128_S256x1_S256x128_1_0_0_1 (fun _ b => b) mem (wrapped y)
    (Host.divf (mixed mem y v)
      (broadcastInDim S256x128 ![0, 1] bcast_S256x1_S256x128_0_1
        (Host.sqrt
          (broadcastInDim S256x1 ![0] bcast_S256_S256x1_0
            (Host.reduceAdd (mulf (mixed mem y v) (mixed mem y v)) (constant (F := Ideal) S_ .f32 0x00000000#32)
              reducesTo_S256x128_S256_d1 h_S_)))))

end Cert.MemUpdate

end
-- ==== Proof.KernelTail.lean ====
/-
  The kernel's host lines after the region: the two memory banks' momentum updates.

  They read only argument arrays (the labels, a bank, the samples' features), which the region does not touch, so each result is
  `MemUpdate.memUpdate` of the arguments as launched.
-/
import proofs.«150685_j21801253995012_2_alg».proof.Proof.KernelIdealFrame
import proofs.«150685_j21801253995012_2_alg».proof.Proof.KernelEntry
import proofs.«150685_j21801253995012_2_alg».proof.Proof.MemUpdate
import Idealize.ShloMosaic.Lib.StableHlo.Run

noncomputable section

namespace Cert.KernelTail

open Cert.KernelIdeal Cert.KernelIdeal.Gen Cert.KernelIdeal.GenP Idealize.ShloMosaic Idealize.ShloMosaic.TcCoe Idealize.SL.Sem
open Idealize.ShloMosaic.StableHlo Cert.KernelEntry Cert.MemUpdate

variable (m : (ℓ : Loc nD τ sig) → Buf (Elt Ideal) ℓ)

/-- The region and the host tail leave argument 0 as launched. -/
theorem kept0 (c : Dev nD) :
    Pipeline.withArrays (cfgs 0).spec c (V0 m c) (fun w => (dats (F := Ideal) m 0 c).arrAt w (cfgs 0).N) (Proc.devRef .tc main_arg0)
      = m ((c : Thread nD τ).loc main_arg0) :=
  (Pipeline.withArrays_of_ne _ c (V0 m c) _ main_arg0 (by exact (by decide : ∀ w, Pipeline.arrRef spec0 w ≠ main_arg0))).trans
    (V_main_arg0 m c)

/-- The region and the host tail leave argument 1 as launched. -/
theorem kept1 (c : Dev nD) :
    Pipeline.withArrays (cfgs 0).spec c (V0 m c) (fun w => (dats (F := Ideal) m 0 c).arrAt w (cfgs 0).N) (Proc.devRef .tc main_arg1)
      = m ((c : Thread nD τ).loc main_arg1) :=
  (Pipeline.withArrays_of_ne _ c (V0 m c) _ main_arg1 (by exact (by decide : ∀ w, Pipeline.arrRef spec0 w ≠ main_arg1))).trans
    (V_main_arg1 m c)

/-- The region and the host tail leave argument 2 as launched. -/
theorem kept2 (c : Dev nD) :
    Pipeline.withArrays (cfgs 0).spec c (V0 m c) (fun w => (dats (F := Ideal) m 0 c).arrAt w (cfgs 0).N) (Proc.devRef .tc main_arg2)
      = m ((c : Thread nD τ).loc main_arg2) :=
  (Pipeline.withArrays_of_ne _ c (V0 m c) _ main_arg2 (by exact (by decide : ∀ w, Pipeline.arrRef spec0 w ≠ main_arg2))).trans
    (V_main_arg2 m c)

/-- The region and the host tail leave argument 4 as launched. -/
theorem kept4 (c : Dev nD) :
    Pipeline.withArrays (cfgs 0).spec c (V0 m c) (fun w => (dats (F := Ideal) m 0 c).arrAt w (cfgs 0).N) (Proc.devRef .tc main_arg4)
      = m ((c : Thread nD τ).loc main_arg4) :=
  (Pipeline.withArrays_of_ne _ c (V0 m c) _ main_arg4 (by exact (by decide : ∀ w, Pipeline.arrRef spec0 w ≠ main_arg4))).trans
    (V_main_arg4 m c)

/-- The region and the host tail leave argument 5 as launched. -/
theorem kept5 (c : Dev nD) :
    Pipeline.withArrays (cfgs 0).spec c (V0 m c) (fun w => (dats (F := Ideal) m 0 c).arrAt w (cfgs 0).N) (Proc.devRef .tc main_arg5)
      = m ((c : Thread nD τ).loc main_arg5) :=
  (Pipeline.withArrays_of_ne _ c (V0 m c) _ main_arg5 (by exact (by decide : ∀ w, Pipeline.arrRef spec0 w ≠ main_arg5))).trans
    (V_main_arg5 m c)

set_option maxHeartbeats 8000000 in
/-- The first bank's update, as the host tail leaves it. -/
theorem bank1 (c : Dev nD) :
    (Pipeline.afterTail₀ cfgs (dats (F := Ideal) m) 0 (V0 m) [hostOps1] c main_v0_2 : S1000000x128.Idx → EReal)
      = memUpdate (m ((c : Thread nD τ).loc main_arg4)) (m ((c : Thread nD τ).loc main_arg2)) (m ((c : Thread nD τ).loc main_arg0)) := by
  unfold Pipeline.afterTail₀
  show StableHlo.after hostOps1 _ (Proc.devRef .tc main_v0_2) = _
  simp only [hostOps1]
  after_results_simp
  simp only [TRef.ofBuf_toBuf, toBuf_main_v0_2, ofBuf_main_arg4, ofBuf_main_arg2, ofBuf_main_arg0]
  rw [kept4 m c, kept2 m c, kept0 m c]
  rfl

set_option maxHeartbeats 8000000 in
/-- The second bank's update, as the host tail leaves it. -/
theorem bank2 (c : Dev nD) :
    (Pipeline.afterTail₀ cfgs (dats (F := Ideal) m) 0 (V0 m) [hostOps1] c main_v0_3 : S1000000x128.Idx → EReal)
      = memUpdate (m ((c : Thread nD τ).loc main_arg5)) (m ((c : Thread nD τ).loc main_arg2)) (m ((c : Thread nD τ).loc main_arg1)) := by
  unfold Pipeline.afterTail₀
  show StableHlo.after hostOps1 _ (Proc.devRef .tc main_v0_3) = _
  simp only [hostOps1]
  after_results_simp
  simp only [TRef.ofBuf_toBuf, toBuf_main_v0_3, ofBuf_main_arg5, ofBuf_main_arg2, ofBuf_main_arg1]
  rw [kept5 m c, kept2 m c, kept1 m c]
  rfl

end Cert.KernelTail

end
-- ==== Proof.KernelRun.lean ====
/-
  The idealized kernel's run with its four results named.

  Every weakly fair execution terminates without a fault; the two score arrays end holding `Scores.scores` of the argument
  arrays (the t branch's in the first result, the s branch's in the second), the two memory banks `MemUpdate.memUpdate` of
  theirs, and the argument arrays are unchanged.
-/
import proofs.«150685_j21801253995012_2_alg».proof.Proof.KernelIdealFrame
import proofs.«150685_j21801253995012_2_alg».proof.Proof.KernelArrays
import proofs.«150685_j21801253995012_2_alg».proof.Proof.KernelTail

noncomputable section

namespace Cert.KernelRun

open Cert.KernelIdeal Cert.KernelIdeal.Gen Cert.KernelIdeal.GenP Idealize.ShloMosaic Idealize.ShloMosaic.TcCoe Idealize.SL.Sem
open Idealize.ShloMosaic.Pipeline (Dat)
open Cert.Scores Cert.MemUpdate

variable (m : (ℓ : Loc nD τ sig) → Buf (Elt Ideal) ℓ) (ρ : Dev nD → PrngReg)

set_option maxHeartbeats 4000000 in
/-- The frame run re-posted with each result at its function of the arguments. -/
theorem run : θ_run (defs (F := Ideal)) (onTc (τ := τ) (main (F := Ideal))) ⟨m, fun _ => 0, ρ⟩ (fun r => ∀ c : Dev nD,
      r.2.mem ((c.tc : Thread nD τ).loc main_v0_0)
        = scores (m ((c.tc : Thread nD τ).loc main_arg1)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg3)) (m ((c.tc : Thread nD τ).loc main_arg5))
      ∧ r.2.mem ((c.tc : Thread nD τ).loc main_v0_1)
        = scores (m ((c.tc : Thread nD τ).loc main_arg0)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg3)) (m ((c.tc : Thread nD τ).loc main_arg5))
      ∧ r.2.mem ((c.tc : Thread nD τ).loc main_v0_2) = memUpdate (m ((c.tc : Thread nD τ).loc main_arg4)) (m ((c.tc : Thread nD τ).loc main_arg2)) (m ((c.tc : Thread nD τ).loc main_arg0))
      ∧ r.2.mem ((c.tc : Thread nD τ).loc main_v0_3) = memUpdate (m ((c.tc : Thread nD τ).loc main_arg5)) (m ((c.tc : Thread nD τ).loc main_arg2)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => ⟨((h c).1 12).trans (Cert.KernelArrays.final12 m c),
      ((h c).1 11).trans (Cert.KernelArrays.final11 m c),
      ((h c).2 main_v0_2 (Pipeline.mem_restRefs_of main_v0_2 (by decide) (by decide))).trans (Cert.KernelTail.bank1 m c),
      ((h c).2 main_v0_3 (Pipeline.mem_restRefs_of main_v0_3 (by decide) (by decide))).trans (Cert.KernelTail.bank2 m c),
      ((h c).2 main_arg0 (Pipeline.mem_restRefs_of main_arg0 (by decide) (by decide))).trans (W_main_arg0 m (dats (F := Ideal) m) c),
      ((h c).2 main_arg1 (Pipeline.mem_restRefs_of main_arg1 (by decide) (by decide))).trans (W_main_arg1 m (dats (F := Ideal) m) c),
      ((h c).2 main_arg2 (Pipeline.mem_restRefs_of main_arg2 (by decide) (by decide))).trans (W_main_arg2 m (dats (F := Ideal) m) c),
      ((h c).2 main_arg3 (Pipeline.mem_restRefs_of main_arg3 (by decide) (by decide))).trans (W_main_arg3 m (dats (F := Ideal) m) c),
      ((h c).2 main_arg4 (Pipeline.mem_restRefs_of main_arg4 (by decide) (by decide))).trans (W_main_arg4 m (dats (F := Ideal) m) c),
      ((h c).2 main_arg5 (Pipeline.mem_restRefs_of main_arg5 (by decide) (by decide))).trans (W_main_arg5 m (dats (F := Ideal) m) c),
      ((h c).2 main_arg6 (Pipeline.mem_restRefs_of main_arg6 (by decide) (by decide))).trans (W_main_arg6 m (dats (F := Ideal) m) c),
      ((h c).2 main_arg7 (Pipeline.mem_restRefs_of main_arg7 (by decide) (by decide))).trans (W_main_arg7 m (dats (F := Ideal) m) c),
      ((h c).2 main_arg8 (Pipeline.mem_restRefs_of main_arg8 (by decide) (by decide))).trans (W_main_arg8 m (dats (F := Ideal) m) c),
      ((h c).1 3).trans (((dats (F := Ideal) m 0 c).arrAt_in 3 rfl _).trans ((A_eq m c 3).trans (V_main_arg9 m c))),
      ((h c).2 main_arg10 (Pipeline.mem_restRefs_of main_arg10 (by decide) (by decide))).trans (W_main_arg10 m (dats (F := Ideal) m) c),
      ((h c).1 5).trans (((dats (F := Ideal) m 0 c).arrAt_in 5 rfl _).trans ((A_eq m c 5).trans (V_main_arg11 m c))),
      ((h c).2 main_arg12 (Pipeline.mem_restRefs_of main_arg12 (by decide) (by decide))).trans (W_main_arg12 m (dats (F := Ideal) m) c),
      ((h c).2 main_arg13 (Pipeline.mem_restRefs_of main_arg13 (by decide) (by decide))).trans (W_main_arg13 m (dats (F := Ideal) m) c),
      ((h c).2 main_arg14 (Pipeline.mem_restRefs_of main_arg14 (by decide) (by decide))).trans (W_main_arg14 m (dats (F := Ideal) m) c),
      ((h c).1 8).trans (((dats (F := Ideal) m 0 c).arrAt_in 8 rfl _).trans ((A_eq m c 8).trans (V_main_arg15 m c))),
      ((h c).2 main_arg16 (Pipeline.mem_restRefs_of main_arg16 (by decide) (by decide))).trans (W_main_arg16 m (dats (F := Ideal) m) c),
      ((h c).1 10).trans (((dats (F := Ideal) m 0 c).arrAt_in 10 rfl _).trans ((A_eq m c 10).trans (V_main_arg17 m c)))⟩)
    (run_main m ρ)

end Cert.KernelRun

end
-- ==== Proof.RefScores.lean ====
/-
  The reference's two score results, read index by index.

  The reference gathers the listed table rows sample by sample, [256, 512, 128], and swaps the first two axes; its hidden layer and
  its scores are two contractions over the feature axis with the weight matrices as given (W[j, d], contracted over d), each plus
  a bias row. Read at (k, b, e), operation by operation, that is `Scores.scores` of the arguments: the gathered row is the table
  row the wrapped, clamped start word idx[b, k] names; a contraction is the finite sum over the feature axis.
-/
import proofs.«150685_j21801253995012_2_alg».proof.Proof.Gen.ReferenceIdeal.Read
import proofs.«150685_j21801253995012_2_alg».proof.Proof.Scores
import proofs.«150685_j21801253995012_2_alg».proof.Proof.LibGatherPlane

noncomputable section

namespace Cert.RefScores

open Cert.ReferenceIdeal Cert.ReferenceIdeal.Gen Cert.ReferenceIdeal.Read Idealize.ShloMosaic Idealize.ShloMosaic.ValueIdx Cert.Scores

/-! ## The gathered rows (shared by the two branches) -/

/-- The start word the gather reads for sample b, listed row k: the wrapped word idx[b, k]. -/
theorem word_at (x3 : (⟨S256x512, .i32⟩ : BufTy).Contents (Elt Ideal)) (b : Fin 256) (k : Fin 512) :
    val_main_v5 (F := Ideal) x3 (ix3 b k (0 : Fin 1)) = wrapWord (x3 (ix2 b k)) := by
  rw [val_main_v5_apply]
  have e : idx_main_v5 (ix3 b k (0 : Fin 1)) = ix2 b k := funext fun a => Fin.ext (by
    match a with | ⟨0, _⟩ => rfl | ⟨1, _⟩ => rfl)
  rw [e]
  rfl

/-- The gathered and transposed rows at (k, b, d): the table row named by idx[b, k], feature d. -/
theorem negRow_at (x3 : (⟨S256x512, .i32⟩ : BufTy).Contents (Elt Ideal)) (x5 : (⟨S1000000x128, .f32⟩ : BufTy).Contents (Elt Ideal))
    (k : Fin 512) (b : Fin 256) (d : Fin 128) :
    val_main_v7 (F := Ideal) x3 x5 (ix3 k b d) = negRow x3 x5 k b d := by
  rw [val_main_v7_apply]
  have e : idx_main_v7 (ix3 k b d) = ix3 b k d := funext fun a => Fin.ext (by
    match a with | ⟨0, _⟩ => rfl | ⟨1, _⟩ => rfl | ⟨2, _⟩ => rfl)
  rw [e]
  unfold val_main_v6
  refine (gather_lines_last (N := 1000000) (H := 128) (R := 256) (C := 512) (by decide)
    Facts₀.gather_S1000000x128_S256x512x1_S256x512x128_2_0_n_n_0_2_1128_wf x5 (val_main_v5 (F := Ideal) x3) b k d).trans ?_
  unfold negRow rowOf
  rw [word_at]

/-! ## The s branch -/

/-- The sample's projection as the reference computes it (a product with the transposed weight matrix, plus the bias
    row) is `proj`. -/
theorem proj_s_at (x0 : (⟨S256x128, .f32⟩ : BufTy).Contents (Elt Ideal)) (x6 : (⟨S128x128, .f32⟩ : BufTy).Contents (Elt Ideal))
    (x7 : (⟨S128, .f32⟩ : BufTy).Contents (Elt Ideal)) (b : Fin 256) (j : Fin 128) :
    val_main_v12 (F := Ideal) x0 x6 x7 (ix2 b j) = proj (feat x0) (mat x6) (row x7) b j := by
  rw [val_main_v12_apply, val_main_v9_apply, val_main_v11_apply, val_main_v10_apply]
  unfold proj
  have e1 : ∀ d : Fin 128, lidx_main_v9 (ix2 b j) d = ix2 b d := fun d => funext fun a => Fin.ext (by
    match a with | ⟨0, _⟩ => rfl | ⟨1, _⟩ => rfl)
  have e2 : ∀ d : Fin 128, val_main_v8 (F := Ideal) x6 (ridx_main_v9 (ix2 b j) d) = x6 (ix2 j d) := fun d => by
    rw [val_main_v8_apply]
    exact congrArg x6 (funext fun a => Fin.ext (by match a with | ⟨0, _⟩ => rfl | ⟨1, _⟩ => rfl))
  have e3 : idx_main_v10 (idx_main_v11 (ix2 b j)) = ix1 j := funext fun a => Fin.ext (by match a with | ⟨0, _⟩ => rfl)
  simp only [e1, e2, e3]
  rfl

/-- The reference's hidden layer at (k, b, j). -/
theorem hidden_s_at (x0 : (⟨S256x128, .f32⟩ : BufTy).Contents (Elt Ideal)) (x3 : (⟨S256x512, .i32⟩ : BufTy).Contents (Elt Ideal))
    (x5 : (⟨S1000000x128, .f32⟩ : BufTy).Contents (Elt Ideal)) (x6 : (⟨S128x128, .f32⟩ : BufTy).Contents (Elt Ideal))
    (x7 : (⟨S128, .f32⟩ : BufTy).Contents (Elt Ideal)) (x8 : (⟨S128x128, .f32⟩ : BufTy).Contents (Elt Ideal))
    (x9 : (⟨S128, .f32⟩ : BufTy).Contents (Elt Ideal)) (k : Fin 512) (b : Fin 256) (j : Fin 128) :
    val_main_v20 (F := Ideal) x0 x3 x5 x6 x7 x8 x9 (ix3 k b j)
      = hidden (negRow x3 x5) (proj (feat x0) (mat x6) (row x7)) (mat x8) (row x9) k b j := by
  rw [val_main_v20_apply, val_main_v19_apply, val_main_v18_apply, val_main_v17_apply, val_main_v16_apply, val_main_v13_apply,
    val_main_v15_apply, val_main_v14_apply, val_main_call0_v0_apply, val_main_call0_cst_apply]
  unfold Scores.hidden
  have e1 : idx_main_v17 (idx_main_v18 (ix3 k b j)) = ix2 b j := funext fun a => Fin.ext (by
    match a with | ⟨0, _⟩ => rfl | ⟨1, _⟩ => rfl)
  have e2 : ∀ d : Fin 128, lidx_main_v13 (ix3 k b j) d = ix3 k b d := fun d => funext fun a => Fin.ext (by
    match a with | ⟨0, _⟩ => rfl | ⟨1, _⟩ => rfl | ⟨2, _⟩ => rfl)
  have e3 : ∀ d : Fin 128, ridx_main_v13 (ix3 k b j) d = ix2 j d := fun d => funext fun a => Fin.ext (by
    match a with | ⟨0, _⟩ => rfl | ⟨1, _⟩ => rfl)
  have e4 : idx_main_v14 (idx_main_v15 (ix3 k b j)) = ix1 j := funext fun a => Fin.ext (by match a with | ⟨0, _⟩ => rfl)
  simp only [e1, e2, e3, e4, proj_s_at, negRow_at]
  rfl

/-- The reference's s result is the scores of its arguments. -/
theorem scores_s (x0 : (⟨S256x128, .f32⟩ : BufTy).Contents (Elt Ideal)) (x3 : (⟨S256x512, .i32⟩ : BufTy).Contents (Elt Ideal))
    (x5 : (⟨S1000000x128, .f32⟩ : BufTy).Contents (Elt Ideal)) (x6 : (⟨S128x128, .f32⟩ : BufTy).Contents (Elt Ideal))
    (x7 : (⟨S128, .f32⟩ : BufTy).Contents (Elt Ideal)) (x8 : (⟨S128x128, .f32⟩ : BufTy).Contents (Elt Ideal))
    (x9 : (⟨S128, .f32⟩ : BufTy).Contents (Elt Ideal)) (x10 : (⟨S128x128, .f32⟩ : BufTy).Contents (Elt Ideal))
    (x11 : (⟨S128, .f32⟩ : BufTy).Contents (Elt Ideal)) :
    val_main_v24 (F := Ideal) x0 x3 x5 x6 x7 x8 x9 x10 x11 = scores x0 x6 x7 x8 x9 x10 x11 x3 x5 := by
  funext i
  obtain ⟨k, b, e, rfl⟩ : ∃ (k : Fin 512) (b : Fin 256) (e : Fin 128), i = ix3 k b e := ⟨i 0, i 1, i 2, eq_ix3 i⟩
  rw [scores_ix3, val_main_v24_apply, val_main_v21_apply, val_main_v23_apply, val_main_v22_apply]
  unfold score
  have e1 : ∀ j : Fin 128, lidx_main_v21 (ix3 k b e) j = ix3 k b j := fun j => funext fun a => Fin.ext (by
    match a with | ⟨0, _⟩ => rfl | ⟨1, _⟩ => rfl | ⟨2, _⟩ => rfl)
  have e2 : ∀ j : Fin 128, ridx_main_v21 (ix3 k b e) j = ix2 e j := fun j => funext fun a => Fin.ext (by
    match a with | ⟨0, _⟩ => rfl | ⟨1, _⟩ => rfl)
  have e3 : idx_main_v22 (idx_main_v23 (ix3 k b e)) = ix1 e := funext fun a => Fin.ext (by match a with | ⟨0, _⟩ => rfl)
  simp only [e1, e2, e3, hidden_s_at]
  rfl

/-! ## The t branch -/

/-- The sample's projection as the reference computes it (a product with the transposed weight matrix, plus the bias
    row) is `proj`. -/
theorem proj_t_at (x1 : (⟨S256x128, .f32⟩ : BufTy).Contents (Elt Ideal)) (x12 : (⟨S128x128, .f32⟩ : BufTy).Contents (Elt Ideal))
    (x13 : (⟨S128, .f32⟩ : BufTy).Contents (Elt Ideal)) (b : Fin 256) (j : Fin 128) :
    val_main_v29 (F := Ideal) x1 x12 x13 (ix2 b j) = proj (feat x1) (mat x12) (row x13) b j := by
  rw [val_main_v29_apply, val_main_v26_apply, val_main_v28_apply, val_main_v27_apply]
  unfold proj
  have e1 : ∀ d : Fin 128, lidx_main_v26 (ix2 b j) d = ix2 b d := fun d => funext fun a => Fin.ext (by
    match a with | ⟨0, _⟩ => rfl | ⟨1, _⟩ => rfl)
  have e2 : ∀ d : Fin 128, val_main_v25 (F := Ideal) x12 (ridx_main_v26 (ix2 b j) d) = x12 (ix2 j d) := fun d => by
    rw [val_main_v25_apply]
    exact congrArg x12 (funext fun a => Fin.ext (by match a with | ⟨0, _⟩ => rfl | ⟨1, _⟩ => rfl))
  have e3 : idx_main_v27 (idx_main_v28 (ix2 b j)) = ix1 j := funext fun a => Fin.ext (by match a with | ⟨0, _⟩ => rfl)
  simp only [e1, e2, e3]
  rfl

/-- The reference's hidden layer at (k, b, j). -/
theorem hidden_t_at (x1 : (⟨S256x128, .f32⟩ : BufTy).Contents (Elt Ideal)) (x3 : (⟨S256x512, .i32⟩ : BufTy).Contents (Elt Ideal))
    (x5 : (⟨S1000000x128, .f32⟩ : BufTy).Contents (Elt Ideal)) (x12 : (⟨S128x128, .f32⟩ : BufTy).Contents (Elt Ideal))
    (x13 : (⟨S128, .f32⟩ : BufTy).Contents (Elt Ideal)) (x14 : (⟨S128x128, .f32⟩ : BufTy).Contents (Elt Ideal))
    (x15 : (⟨S128, .f32⟩ : BufTy).Contents (Elt Ideal)) (k : Fin 512) (b : Fin 256) (j : Fin 128) :
    val_main_v37 (F := Ideal) x1 x3 x5 x12 x13 x14 x15 (ix3 k b j)
      = hidden (negRow x3 x5) (proj (feat x1) (mat x12) (row x13)) (mat x14) (row x15) k b j := by
  rw [val_main_v37_apply, val_main_v36_apply, val_main_v35_apply, val_main_v34_apply, val_main_v33_apply, val_main_v30_apply,
    val_main_v32_apply, val_main_v31_apply, val_main_call1_v0_apply, val_main_call1_cst_apply]
  unfold Scores.hidden
  have e1 : idx_main_v34 (idx_main_v35 (ix3 k b j)) = ix2 b j := funext fun a => Fin.ext (by
    match a with | ⟨0, _⟩ => rfl | ⟨1, _⟩ => rfl)
  have e2 : ∀ d : Fin 128, lidx_main_v30 (ix3 k b j) d = ix3 k b d := fun d => funext fun a => Fin.ext (by
    match a with | ⟨0, _⟩ => rfl | ⟨1, _⟩ => rfl | ⟨2, _⟩ => rfl)
  have e3 : ∀ d : Fin 128, ridx_main_v30 (ix3 k b j) d = ix2 j d := fun d => funext fun a => Fin.ext (by
    match a with | ⟨0, _⟩ => rfl | ⟨1, _⟩ => rfl)
  have e4 : idx_main_v31 (idx_main_v32 (ix3 k b j)) = ix1 j := funext fun a => Fin.ext (by match a with | ⟨0, _⟩ => rfl)
  simp only [e1, e2, e3, e4, proj_t_at, negRow_at]
  rfl

/-- The reference's t result is the scores of its arguments. -/
theorem scores_t (x1 : (⟨S256x128, .f32⟩ : BufTy).Contents (Elt Ideal)) (x3 : (⟨S256x512, .i32⟩ : BufTy).Contents (Elt Ideal))
    (x5 : (⟨S1000000x128, .f32⟩ : BufTy).Contents (Elt Ideal)) (x12 : (⟨S128x128, .f32⟩ : BufTy).Contents (Elt Ideal))
    (x13 : (⟨S128, .f32⟩ : BufTy).Contents (Elt Ideal)) (x14 : (⟨S128x128, .f32⟩ : BufTy).Contents (Elt Ideal))
    (x15 : (⟨S128, .f32⟩ : BufTy).Contents (Elt Ideal)) (x16 : (⟨S128x128, .f32⟩ : BufTy).Contents (Elt Ideal))
    (x17 : (⟨S128, .f32⟩ : BufTy).Contents (Elt Ideal)) :
    val_main_v41 (F := Ideal) x1 x3 x5 x12 x13 x14 x15 x16 x17 = scores x1 x12 x13 x14 x15 x16 x17 x3 x5 := by
  funext i
  obtain ⟨k, b, e, rfl⟩ : ∃ (k : Fin 512) (b : Fin 256) (e : Fin 128), i = ix3 k b e := ⟨i 0, i 1, i 2, eq_ix3 i⟩
  rw [scores_ix3, val_main_v41_apply, val_main_v38_apply, val_main_v40_apply, val_main_v39_apply]
  unfold score
  have e1 : ∀ j : Fin 128, lidx_main_v38 (ix3 k b e) j = ix3 k b j := fun j => funext fun a => Fin.ext (by
    match a with | ⟨0, _⟩ => rfl | ⟨1, _⟩ => rfl | ⟨2, _⟩ => rfl)
  have e2 : ∀ j : Fin 128, ridx_main_v38 (ix3 k b e) j = ix2 e j := fun j => funext fun a => Fin.ext (by
    match a with | ⟨0, _⟩ => rfl | ⟨1, _⟩ => rfl)
  have e3 : idx_main_v39 (idx_main_v40 (ix3 k b e)) = ix1 e := funext fun a => Fin.ext (by match a with | ⟨0, _⟩ => rfl)
  simp only [e1, e2, e3, hidden_t_at]
  rfl

end Cert.RefScores

end
-- ==== Proof.lean ====
/-
  RelationMemory: the tiled kernel against its jnp reference, on the extended reals.

  Both programs return, for two branches (s, t) of a small network, the scores out[k, b, e] of 512 gathered memory rows per sample
  (`Scores.scores`), and the two memory banks after a momentum update of the rows the labels name (`MemUpdate.memUpdate`).

  * The scores. The reference gathers mem[idx] as [256, 512, 128], swaps the first two axes, and contracts with the weight matrices
    as given (einsum 'kbd,ed->kbe'). The kernel gathers with the index array transposed first, so the rows arrive in the
    [512, 256, 128] layout; on the host it forms the sample projections a = v W1ᵀ + b1 and the transposed weight copies; in the region,
    for each of 16 tiles of 32 listed rows, it flattens (k, b), multiplies by the transposed copies on the matrix unit into a zero
    accumulator, and restores the layout. At every (k, b, e) both are the same finite sums of the same products, the same max with
    the zero word, and the same bias rows: `RefScores.scores_s` / `scores_t` for the reference, `KernelArrays.final11` / `final12`
    for the kernel (what each grid point writes back is its block of that one function, and the blocks fill the array). No law
    that needs finite inputs is used: only that a gather at transposed indices is the transposed gather, that a reshape is a
    bijection of indices, and that a product into a zero accumulator, like the host's contraction, is the sum over the contracted axis.
  * The banks. Both programs apply the same line of host operations to the same arguments; the kernel's lines stand after its
    region, which leaves those arguments untouched (`KernelTail.bank1` / `bank2`); the reference's composed term is that same
    function (`ref_bank1` / `ref_bank2`).
  * The frames: the two kernel programs' frame certificates (`Kernel.GenP.frame`, `KernelIdeal.GenP.frame`), and the reference's run
    with the results dropped. The idealization rewrote nothing, so `preserves` is `True`.
-/
import proofs.«150685_j21801253995012_2_alg».proof.Defs
import proofs.«150685_j21801253995012_2_alg».proof.Proof.Gen.Kernel
import proofs.«150685_j21801253995012_2_alg».proof.Proof.Gen.Kernel.Skeleton
import proofs.«150685_j21801253995012_2_alg».proof.Proof.Gen.Kernel.Launch
import proofs.«150685_j21801253995012_2_alg».proof.Proof.Gen.Kernel.Points
import proofs.«150685_j21801253995012_2_alg».proof.Proof.KernelFrame
import proofs.«150685_j21801253995012_2_alg».proof.Proof.Gen.KernelIdeal
import proofs.«150685_j21801253995012_2_alg».proof.Proof.Gen.KernelIdeal.Skeleton
import proofs.«150685_j21801253995012_2_alg».proof.Proof.Gen.KernelIdeal.Launch
import proofs.«150685_j21801253995012_2_alg».proof.Proof.Gen.KernelIdeal.Points
import proofs.«150685_j21801253995012_2_alg».proof.Proof.KernelIdealFrame
import proofs.«150685_j21801253995012_2_alg».proof.Proof.Gen.ReferenceIdeal
import proofs.«150685_j21801253995012_2_alg».proof.Proof.Gen.Pre_finite_inputs
import proofs.«150685_j21801253995012_2_alg».proof.Proof.Gen.ReferenceIdeal.Run
import proofs.«150685_j21801253995012_2_alg».proof.Proof.Gen.ReferenceIdeal.Read
import proofs.«150685_j21801253995012_2_alg».proof.Proof.KernelRun
import proofs.«150685_j21801253995012_2_alg».proof.Proof.RefScores
import proofs.«150685_j21801253995012_2_alg».proof.Proof.MemUpdate
import Idealize.ShloMosaic.Adequacy
import Idealize.ShloMosaic.Init

noncomputable section

namespace Cert.Proof

open Idealize.ShloMosaic Idealize.SL.Sem

/-! ## The reference's bank updates are the shared function -/

/-- The reference's first updated bank, stage by stage, is `memUpdate`: the same operations in the same order. -/
theorem ref_bank1 (v : FVec Ideal Cert.KernelIdeal.S256x128 .f32) (y : IVec Cert.KernelIdeal.S256 32)
    (mem : FVec Ideal Cert.KernelIdeal.S1000000x128 .f32) :
    Cert.ReferenceIdeal.Read.val_main_v66 (F := Ideal) v y mem = Cert.MemUpdate.memUpdate mem y v := rfl

/-- The reference's second updated bank likewise. -/
theorem ref_bank2 (v : FVec Ideal Cert.KernelIdeal.S256x128 .f32) (y : IVec Cert.KernelIdeal.S256 32)
    (mem : FVec Ideal Cert.KernelIdeal.S1000000x128 .f32) :
    Cert.ReferenceIdeal.Read.val_main_v91 (F := Ideal) v y mem = Cert.MemUpdate.memUpdate mem y v := rfl

/-! ## The claims -/

theorem frame_p : Cert.frame_Kernel := fun m ρ _ => Cert.Kernel.GenP.frame m ρ
theorem frame_pi : Cert.frame_KernelIdeal := fun m ρ _ => Cert.KernelIdeal.GenP.frame m ρ
theorem frame_ri : Cert.frame_ReferenceIdeal := fun m ρ _ =>
  (θ_run Cert.ReferenceIdeal.defs _ _).mono (fun _ h c => (h c).2.2.2.2) (Cert.ReferenceIdeal.Value.run (F := Ideal) m ρ)

/-- The idealization rewrote no operation. -/
theorem preserves : Cert.preserves_Kernel_KernelIdeal := trivial

set_option maxHeartbeats 4000000 in
/-- From memories agreeing on the arguments both programs end with the same four results: each program's result is the named
    function of its own arguments, and the arguments agree. -/
theorem algebraic : Cert.algebraic_KernelIdeal_ReferenceIdeal := by
  intro m ρ m' ρ' _ hagree
  refine ⟨_, _, _, _, Cert.KernelRun.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10, a11, a12, a13, a14, a15, a16, a17⟩ := hagree c
  refine ⟨?_, ?_, ?_, ?_, (h c).2.2.2.2⟩
  · refine (h c).1.trans ((Cert.ReferenceIdeal.Read.val_main_v41_eq _ _ _ _ _ _ _ _ _).trans
      ((Cert.RefScores.scores_t _ _ _ _ _ _ _ _ _).trans ?_))
    rw [a1, a12, a13, a14, a15, a16, a17, a3, a5]
  · refine (h c).2.1.trans ((Cert.ReferenceIdeal.Read.val_main_v24_eq _ _ _ _ _ _ _ _ _).trans
      ((Cert.RefScores.scores_s _ _ _ _ _ _ _ _ _).trans ?_))
    rw [a0, a6, a7, a8, a9, a10, a11, a3, a5]
  · refine (h c).2.2.1.trans ((Cert.ReferenceIdeal.Read.val_main_v66_eq _ _ _).trans ((ref_bank1 _ _ _).trans ?_))
    rw [a4, a2, a0]
  · refine (h c).2.2.2.1.trans ((Cert.ReferenceIdeal.Read.val_main_v91_eq _ _ _).trans ((ref_bank2 _ _ _).trans ?_))
    rw [a5, a2, a1]

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
